-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_2)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v25) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S1x1 : Shape := ⟨2, ![1, 1]⟩
abbrev S4096x4096 : Shape := ⟨2, ![4096, 4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S1x1 .f32) (main_arg5 : FVec F S4096x4096 .f32) (main_arg6 : FVec F S1x4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1x1 .f32 := Host.absf main_arg4
  let main_cst_6 : FVec F S_ .f32 := constant S_ .f32 0x7F800000#32
  let main_v20 : FVec F S1x1 .f32 := broadcastInDim S1x1 ![] bcast_S_S1x1 main_cst_6
  let main_v21 : IVec S1x1 1 := cmpf .olt main_v19 main_v20
  let main_c_7 : IVec S_ 1 := constantI S_ 1 1#1
  let main_v22 : IVec S_ 1 := (fun x v => Host.reduce IntOp.andi x v reducesTo_S1x1_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S1x4096 .f32 := Host.absf main_arg6
  let main_cst_10 : FVec F S_ .f32 := constant S_ .f32 0x7F800000#32
  let main_v30 : FVec F S1x4096 .f32 := broadcastInDim S1x4096 ![] bcast_S_S1x4096 main_cst_10
  let main_v31 : IVec S1x4096 1 := cmpf .olt main_v29 main_v30
  let main_c_11 : IVec S_ 1 := constantI S_ 1 1#1
  let main_v32 : IVec S_ 1 := (fun x v => Host.reduce IntOp.andi x v reducesTo_S1x4096_S_d0_1 h_S_) main_v31 main_c_11
  let main_v33 : IVec S_ 1 := andi main_v28 main_v32
  main_v33

def fn {F : FTy → Type} [FloatOps F] (main_arg0 : FVec F S1x4096 .f32) (main_arg1 : FVec F S1x4096 .f32) (main_arg2 : FVec F S1x4096 .f32) (main_arg3 : FVec F S1x4096 .f32) (main_arg4 : FVec F S1x1 .f32) (main_arg5 : FVec F S4096x4096 .f32) (main_arg6 : FVec F S1x4096 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_arg6 main_v13 main_v16
-- ==== Kernel.lean ====
abbrev S1x4096 : Shape := ⟨2, ![1, 4096]⟩
abbrev S1x1 : Shape := ⟨2, ![1, 1]⟩
abbrev S4096x4096 : Shape := ⟨2, ![4096, 4096]⟩
abbrev S1x1024 : Shape := ⟨2, ![1, 1024]⟩
abbrev S4096x1024 : Shape := ⟨2, ![4096, 1024]⟩
abbrev S_ : Shape := ⟨0, ![]⟩
abbrev S1x2048 : Shape := ⟨2, ![1, 2048]⟩
abbrev S2048x1 : Shape := ⟨2, ![2048, 1]⟩
abbrev S512x2048 : Shape := ⟨2, ![512, 2048]⟩
abbrev S512x1 : Shape := ⟨2, ![512, 1]⟩

abbrev nBuf : Space → Nat
  | .hbm => 43
  | .vmem => 24
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x1, .f32⟩
  | .hbm, ⟨5, _⟩ => ⟨S4096x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S1x1, .f32⟩
  | .hbm, ⟨22, _⟩ => ⟨S1x1, .f32⟩
  | .hbm, ⟨23, _⟩ => ⟨S_, .f32⟩
  | .hbm, ⟨24, _⟩ => ⟨S1x1, .f32⟩
  | .hbm, ⟨25, _⟩ => ⟨S1x1, .i1⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .f32⟩
  | .hbm, ⟨34, _⟩ => ⟨S_, .f32⟩
  | .hbm, ⟨35, _⟩ => ⟨S1x1, .f32⟩
  | .hbm, ⟨36, _⟩ => ⟨S1x1, .i1⟩
  | .hbm, ⟨37, _⟩ => ⟨S1x1, .f32⟩
  | .hbm, ⟨38, _⟩ => ⟨S1x1, .f32⟩
  | .hbm, ⟨39, _⟩ => ⟨S1x1, .f32⟩
  | .hbm, ⟨40, _⟩ => ⟨S1x2048, .f32⟩
  | .hbm, ⟨41, _⟩ => ⟨S2048x1, .f32⟩
  | .hbm, ⟨42, _⟩ => ⟨S4096x4096, .f32⟩
  | .local _ .vmem, ⟨0, _⟩ => ⟨S1x4096, .f32⟩
  | .local _ .vmem, ⟨1, _⟩ => ⟨S1x1024, .f32⟩
  | .local _ .vmem, ⟨2, _⟩ => ⟨S1x1024, .f32⟩
  | .local _ .vmem, ⟨3, _⟩ => ⟨S4096x1024, .f32⟩
  | .local _ .vmem, ⟨4, _⟩ => ⟨S4096x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x2048, .f32⟩
  | .local _ .vmem, ⟨16, _⟩ => ⟨S512x2048, .f32⟩
  | .local _ .vmem, ⟨17, _⟩ => ⟨S512x1, .f32⟩
  | .local _ .vmem, ⟨18, _⟩ => ⟨S512x1, .f32⟩
  | .local _ .vmem, ⟨19, _⟩ => ⟨S1x2048, .f32⟩
  | .local _ .vmem, ⟨20, _⟩ => ⟨S1x2048, .f32⟩
  | .local _ .vmem, ⟨21, _⟩ => ⟨S1x1, .f32⟩
  | .local _ .vmem, ⟨22, _⟩ => ⟨S512x2048, .f32⟩
  | .local _ .vmem, ⟨23, _⟩ => ⟨S512x2048, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x4096_S1x4096_0_0 : ∀ a, (![0, 0] : Fin 2 → Nat) a + S1x4096.size a ≤ S1x4096.size a
  h_S1x4096 : 0 < S1x4096.numel
  inb_S4096x1024_S4096x1024_0_0 : ∀ a, (![0, 0] : Fin 2 → Nat) a + S4096x1024.size a ≤ S4096x1024.size a
  h_S4096x1024 : 0 < S4096x1024.numel
  inb_S1x1024_S1x1024_0_0 : ∀ a, (![0, 0] : Fin 2 → Nat) a + S1x1024.size a ≤ S1x1024.size a
  h_S1x1024 : 0 < S1x1024.numel
  natLt_1_32 : 1 < 32
  reducesTo_S1x4096_S_d0_1 : S1x4096.ReducesTo [0, 1] S_
  h_S_ : 0 < S_.numel
  bcast_S_S1x1 : S_.BroadcastsInDim S1x1 (![] : Fin 0 → Fin S1x1.rank)
  slices_S1x4096_S1x2048_0_2048 : S1x4096.Slices ![0, 2048] S1x2048
  transposes_S1x2048_S2048x1_1_0 : S1x2048.Transposes [1, 0] S2048x1
  iota_S1x2048_d1_w32 : S1x2048.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2048 : S1x1.Broadcasts S512x2048
  inb_S512x2048_S512x2048_0_0 : ∀ a, (![0, 0] : Fin 2 → Nat) a + S512x2048.size a ≤ S512x2048.size a
  h_S512x2048 : 0 < S512x2048.numel
  dot_S1x4096_S4096x1024_S1x1024_1_0_0_1_n_n_wf : DotDims.WF S1x4096 S4096x1024 S1x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .f32 = 32 ∨ (Rect.block (s := S1x4096) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x4096.size a
  hwx0_2 : ∀ i : grid0.Coords, EltTy.bits .f32 = 32 ∨ (Rect.block (s := S4096x4096) S4096x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x4096.size a
  hwx0_7 : ∀ i : grid0.Coords, EltTy.bits .f32 = 32 ∨ (Rect.block (s := S1x4096) S1x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x4096.size a
  hwx1_0 : ∀ i : grid1.Coords, EltTy.bits .f32 = 32 ∨ (Rect.block (s := S4096x4096) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S2048x1.size a
  hwx1_1 : ∀ i : grid1.Coords, EltTy.bits .f32 = 32 ∨ (Rect.block (s := S2048x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S4096x4096.size a
  hwx1_4 : ∀ i : grid1.Coords, EltTy.bits .f32 = 32 ∨ (Rect.block (s := S4096x4096) S512x2048.size (cc1_transform_4 i) (hinb1_4 i)).WholeWords (EltTy.packing .f32)

variable [Facts₀]

def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf

abbrev win0_0 : Pipeline.Window sig grid0 :=
  Pipeline.Window.ofSpec (Memref.whole main_arg0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4096x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg5) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where
  halias1_4 : Pipeline.Aliased win1 0 4

variable [Facts]
-- ==== ReferenceIdeal.lean ====
abbrev S1x4096 : Shape := ⟨2, ![1, 4096]⟩
abbrev S1x1 : Shape := ⟨2, ![1, 1]⟩
abbrev S4096x4096 : Shape := ⟨2, ![4096, 4096]⟩
abbrev S_ : Shape := ⟨0, ![]⟩
abbrev S1x2048 : Shape := ⟨2, ![1, 2048]⟩
abbrev S1 : Shape := ⟨1, ![1]⟩
abbrev S2 : Shape := ⟨1, ![2]⟩
abbrev S2048x2048 : Shape := ⟨2, ![2048, 2048]⟩

abbrev nBuf : Space → Nat
  | .hbm => 86
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x1, .f32⟩
  | .hbm, ⟨5, _⟩ => ⟨S4096x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .i1⟩
  | .hbm, ⟨16, _⟩ => ⟨S1x4096, .f32⟩
  | .hbm, ⟨17, _⟩ => ⟨S_, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S_, .f32⟩
  | .hbm, ⟨25, _⟩ => ⟨S_, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S1x1, .f32⟩
  | .hbm, ⟨32, _⟩ => ⟨S_, .f32⟩
  | .hbm, ⟨33, _⟩ => ⟨S1x1, .f32⟩
  | .hbm, ⟨34, _⟩ => ⟨S1x1, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S1x1, .i1⟩
  | .hbm, ⟨39, _⟩ => ⟨S1x1, .f32⟩
  | .hbm, ⟨40, _⟩ => ⟨S1x1, .f32⟩
  | .hbm, ⟨41, _⟩ => ⟨S_, .f32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S1x1, .f32⟩
  | .hbm, ⟨49, _⟩ => ⟨S1x1, .i1⟩
  | .hbm, ⟨50, _⟩ => ⟨S1x1, .f32⟩
  | .hbm, ⟨51, _⟩ => ⟨S1x1, .f32⟩
  | .hbm, ⟨52, _⟩ => ⟨S1x1, .f32⟩
  | .hbm, ⟨53, _⟩ => ⟨S_, .f32⟩
  | .hbm, ⟨54, _⟩ => ⟨S1x2048, .f32⟩
  | .hbm, ⟨55, _⟩ => ⟨S_, .f32⟩
  | .hbm, ⟨56, _⟩ => ⟨S1x2048, .f32⟩
  | .hbm, ⟨57, _⟩ => ⟨S1x4096, .f32⟩
  | .hbm, ⟨58, _⟩ => ⟨S1x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S2, .i32⟩
  | .hbm, ⟨70, _⟩ => ⟨S_, .f32⟩
  | .hbm, ⟨71, _⟩ => ⟨S2048x2048, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S_, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S2, .i32⟩
  | .hbm, ⟨80, _⟩ => ⟨S_, .f32⟩
  | .hbm, ⟨81, _⟩ => ⟨S2048x2048, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S4096x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_c : Ref sig .tc := ⟨.hbm, 65, rfl⟩
abbrev main_v45 : Ref sig .tc := ⟨.hbm, 66, rfl⟩
abbrev main_c_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_c_15 : Ref sig .tc := ⟨.hbm, 75, rfl⟩
abbrev main_v51 : Ref sig .tc := ⟨.hbm, 76, rfl⟩
abbrev main_c_16 : Ref sig .tc := ⟨.hbm, 77, rfl⟩
abbrev main_v52 : Ref sig .tc := ⟨.hbm, 78, rfl⟩
abbrev main_v53 : Ref sig .tc := ⟨.hbm, 79, rfl⟩
abbrev main_cst_17 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call0_v0 : Ref sig .tc := ⟨.hbm, 84, rfl⟩
abbrev main_v57 : Ref sig .tc := ⟨.hbm, 85, rfl⟩

abbrev nD : Nat := 1
abbrev τ : Topo := Topo.v7x

variable {F : FTy → Type} [FloatOps F]

class Facts₀ : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S1x1 : S_.BroadcastsInDim S1x1 (![] : Fin 0 → Fin S1x1.rank)
  bcast_S_S1x2048 : S_.BroadcastsInDim S1x2048 (![] : Fin 0 → Fin S1x2048.rank)
  concatenates_S1x2048_S1x2048_S1x4096_d1 : Shape.Concatenates [S1x2048, S1x2048] S1x4096 1
  bcast_S1x1_S4096x4096_0_1 : S1x1.BroadcastsInDim S4096x4096 (![0, 1] : Fin 2 → Fin S4096x4096.rank)
  bcast_S_S4096x4096 : S_.BroadcastsInDim S4096x4096 (![] : Fin 0 → Fin S4096x4096.rank)
  bcast_S_S1 : S_.BroadcastsInDim S1 (![] : Fin 0 → Fin S1.rank)
  concatenates_S1_S1_S2_d0 : Shape.Concatenates [S1, S1] S2 0
  bcast_S_S2048x2048 : S_.BroadcastsInDim S2048x2048 (![] : Fin 0 → Fin S2048x2048.rank)
  dot_S1x4096_S4096x4096_S1x4096_1_0_0_1_n_n_wf : DotDims.WF S1x4096 S4096x4096 S1x4096 [1] [0] [0] [1] [] []
  dot_S1x4096_S1x4096_S4096x4096_0_0_1_1_n_n_wf : DotDims.WF S1x4096 S1x4096 S4096x4096 [0] [0] [1] [1] [] []
  scatter_S4096x4096_S2_S2048x2048_01_n_01_0_wf : ScatterDims.WF S4096x4096 S2 S2048x2048 [0, 1] [] [0, 1] 0

variable [Facts₀]

def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S1x4096_S1x4096_S4096x4096_0_0_1_1_n_n : DotDims S1x4096 S1x4096 S4096x4096 where
  lhsContracting := [0]
  rhsContracting := [0]
  lhsNonContracting := [1]
  rhsNonContracting := [1]
  lhsBatch := []
  rhsBatch := []
  wf := dot_S1x4096_S1x4096_S4096x4096_0_0_1_1_n_n_wf
def scatter_S4096x4096_S2_S2048x2048_01_n_01_0 : ScatterDims S4096x4096 S2 S2048x2048 where
  updateWindowDims := [0, 1]
  insertedWindowDims := []
  scatterDimsToOperandDims := [0, 1]
  indexVectorDim := 0
  wf := scatter_S4096x4096_S2_S2048x2048_01_n_01_0_wf

class Facts : Prop extends Facts₀ where

variable [Facts]
-- ==== Proof.KernelRun.lean ====
/-
  The idealized kernel's run, with EVERY buffer read at the end. The program is two kernel regions with a stretch of
  host operations between them. Its buffer contents are followed boundary by boundary: at launch the memory itself;
  after the first region its arrays at what the region's write-backs leave and everything else untouched; after the
  host stretch the fold of its operations; after the second region again its arrays at what the write-backs leave.
  Every weakly fair execution terminates without a fault, and in the final state every buffer that is not scoped
  to a region holds the last boundary's contents. (The frame claim keeps of this only the argument arrays; the
  value claim needs the results.)
-/
import proofs.«161963_j3315714752610_2_alg».proof.Proof.KernelIdealFrameP

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the contents after the
    second region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- A result buffer of @main in the final state: the contents after the second region, at that buffer. -/
theorem read_final (r : PUnit × MemSt nD τ sig (Elt F))
    (h : ∀ c : Dev nD, ∀ b ∈ Pipeline.ucRefs τ sig, r.2.mem (((c : Thread nD τ)).1, b) = W3 m ρ c b)
    (c : Dev nD) (b : Ref sig .tc) (hb : ¬ (Proc.devRef .tc b : DevRef τ sig).isScoped) :
    r.2.mem ((c.tc : Thread nD τ).loc b) = W3 m ρ c (Proc.devRef .tc b) :=
  h c _ (mem_uc b hb)

end Cert.KernelIdeal.Whole

end
-- ==== Proof.Spec.lean ====
/-
  What the step computes, as functions of the argument arrays on the extended reals (one spiking-network step:
  a leaky integrate-and-fire update against a given threshold array, a filtered population activity, and an
  outer-product weight update clipped to sign constraints).

  With `x` the input row, `v` the membrane potentials, `th` the thresholds, `w` the input weights (rows: input
  neurons, columns: recurrent neurons) and `A` the previous population activity:
    current q    = Σ_k x[k] · w[k, q]
    potential q  = v[q] + 0.1 · (-v[q] + current q)                       (0.1 the f32 nearest to it)
    spike q      = 1 if tanh (potential q) > th[q], else 0
    new_v q      = potential q · (1 - spike q)          new_z q = spike q · 1
    activity     = A + 0.02 · (Σ_q new_z q - A)         (the host's chain `popOf`, shared by both programs)
    surprise     = a gated combination of tanh (activity / 2)             (the host's chain `surpriseOf`, shared)
    new_w[r, q]  = w[r, q]                                                            for r < 2048
                 = min (hi q) (max (lo q) (w[r, q] + (-(x[r] · current q)) · surprise)) for r ≥ 2048
  where (lo q, hi q) = (-∞, 0) for q < 2048 and (0, +∞) for q ≥ 2048.
-/
import Idealize.ShloMosaic.PureOps.Ideal.Laws
import Idealize.ShloMosaic.Lib.ValueIdx

noncomputable section

open scoped BigOperators

namespace Cert.Spec

open Idealize.ShloMosaic Idealize.ShloMosaic.ValueIdx

abbrev SRow : Shape := ⟨2, ![1, 4096]⟩
abbrev SMat : Shape := ⟨2, ![4096, 4096]⟩
abbrev SOne : Shape := ⟨2, ![1, 1]⟩
abbrev SNil : Shape := ⟨0, ![]⟩

abbrev Row := FVec Ideal SRow .f32
abbrev Mat := FVec Ideal SMat .f32
abbrev One := FVec Ideal SOne .f32

/-- The synaptic current into recurrent neuron `q`. -/
def current (x : Row) (w : Mat) (q : Fin 4096) : EReal := ∑ k : Fin 4096, x (ix2 0 k) * w (ix2 k q)

/-- The membrane potential before the reset. -/
def potential (x v : Row) (w : Mat) (q : Fin 4096) : EReal :=
  v (ix2 0 q) + Ideal.ofBits .f32 0x3DCCCCCD#32 * (-(v (ix2 0 q)) + current x w q)

/-- The spike, as the float `0` or `1`. -/
def spike (x v th : Row) (w : Mat) (q : Fin 4096) : EReal :=
  FloatOps.uitofp (F := Ideal) .f32 (FloatOps.cmpf (F := Ideal) .ogt (Ideal.tanh (potential x v w q)) (th (ix2 0 q)))

/-- The column of an index of a row. -/
abbrev col (i : SRow.Idx) : Fin 4096 := ⟨(i 1).val, idx2_lt1 i⟩

def currentRow (x : Row) (w : Mat) : Row := fun i => current x w (col i)
def newV (x v th : Row) (w : Mat) : Row := fun i => potential x v w (col i) * (Ideal.ofBits .f32 0x3F800000#32 - spike x v th w (col i))
def newZ (x v th : Row) (w : Mat) : Row := fun i => spike x v th w (col i) * Ideal.ofBits .f32 0x3F800000#32

section HostChains

variable (hr : SRow.ReducesTo [0, 1] SNil) (h0 : 0 < SNil.numel)
  (hb : SNil.BroadcastsInDim SOne (![] : Fin 0 → Fin SOne.rank))

/-- A scalar literal as a one-by-one array. -/
def lit (b : BitVec 32) : One := broadcastInDim SOne ![] hb (constant (F := Ideal) SNil .f32 b)

/-- The filtered population activity from the spikes `z` and the previous activity `A`: the host operations both
    programs apply, in their order. -/
def popOf (z : Row) (A : One) : One :=
  addf A (mulf (lit hb 0x3CA3D70A#32)
    (subf (broadcastInDim SOne ![] hb (Host.reduceAdd z (constant (F := Ideal) SNil .f32 0x00000000#32) hr h0)) A))

/-- Half the activity. -/
def halfOf (p : One) : One := Host.divf p (lit hb 0x40000000#32)

/-- Its hyperbolic tangent, gated to positive activity. -/
def tanOf (p : One) : One :=
  mulf (Host.tanh (halfOf hb p)) (uitofp .f32 (cmpf .ogt (halfOf hb p) (lit hb 0x00000000#32)))

/-- The surprise signal: the host operations both programs apply, in their order. -/
def surpriseOf (p : One) : One :=
  addf (mulf (lit hb 0x3ACDC875#32) (tanOf hb p))
    (mulf (mulf (lit hb 0x3D6B7AA2#32) (tanOf hb p)) (uitofp .f32 (cmpf .ogt (halfOf hb p) (lit hb 0x3E61E4F7#32))))

end HostChains

/-- The lower and upper clip bounds of column `q`. -/
def lo (q : Nat) : EReal := if q < 2048 then ⊥ else 0
def hi (q : Nat) : EReal := if q < 2048 then 0 else ⊤

/-- The updated weights, given the current row `cur` and the surprise `s`. -/
def newW (x : Row) (w : Mat) (cur : Row) (s : One) : Mat := fun i =>
  if h : 2048 ≤ (i 0).val then
    min (hi (i 1).val) (max (lo (i 1).val)
      (w i + (-(x (ix2 0 ⟨(i 0).val, idx2_lt0 i⟩) * cur (ix2 0 ⟨(i 1).val, idx2_lt1 i⟩))) * s (ix2 0 0)))
  else w i

end Cert.Spec

end
-- ==== Proof.Scalars.lean ====
/-
  The few facts about single extended reals and single machine integers that join the two programs.
  * The kernel negates by subtracting from zero, the reference by `negate`: `0 - x = -x` on the extended reals
    (no finiteness needed: `0 + y = y` for every `y`).
  * The kernel turns the spike comparison's bit into a float by widening it to 32 bits and reading that word as a
    SIGNED integer, the reference by reading the bit as an UNSIGNED integer: a widened bit is `0` or `1`, which
    reads the same either way.
  * The clip bounds: the patterns of `+∞` and `-∞` are the top and bottom of the extended reals, so a maximum
    against the bottom and a minimum against the top change nothing.
  * The kernel's column mask: lane `q` of column tile `j` is column `2048·j + q`, which is below 2048 exactly in
    tile 0 (decided over the 2048 lanes of each of the two tiles).
-/
import Idealize.ShloMosaic.PureOps.Ideal.Laws
import Idealize.ShloMosaic.Lib.IdealHost
import Idealize.ShloMosaic.Lib.ValueIdx

noncomputable section

namespace Cert.Scalars

open Idealize.ShloMosaic

theorem ofBits_posInf : Ideal.ofBits .f32 0x7F800000#32 = ⊤ := by simp [Ideal.ofBits, Ideal.ieee]

theorem ofBits_negInf : Ideal.ofBits .f32 0xFF800000#32 = ⊥ := by simp [Ideal.ofBits, Ideal.ieee]

/-- Subtracting from zero is negating, on every extended real. -/
theorem zero_sub_eq_neg (x : EReal) : (0 : EReal) - x = -x := by rw [sub_eq_add_neg, zero_add]

/-- One bit widened to 32 and read signed is the bit read unsigned. -/
theorem toInt_setWidth_one : ∀ b : BitVec 1, (b.setWidth 32).toInt = (b.toNat : Int) := by decide

/-- The two conversions of a comparison's bit to a float agree at the extended reals. -/
theorem sitofp_widen_eq_uitofp (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_setWidth_one, Int.cast_natCast]

/-- Column tile 0: every lane's column is below 2048. -/
theorem lane_below_tile0 : ∀ q : Fin 2048,
    IntOp.cmpi .slt (IntOp.addi (Scalar.muli (BitVec.ofNat 32 0) 2048#32) (BitVec.ofNat 32 q.val)) 2048#32 = 1#1 := by
  decide +kernel

/-- Column tile 1: no lane's column is below 2048. -/
theorem lane_below_tile1 : ∀ q : Fin 2048,
    IntOp.cmpi .slt (IntOp.addi (Scalar.muli (BitVec.ofNat 32 1) 2048#32) (BitVec.ofNat 32 q.val)) 2048#32 = 0#1 := by
  decide +kernel

end Cert.Scalars

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.RegionA.lean ====
/-
  The first kernel (the matrix product and the neuron update), read as values. Its grid has four points; point `t`
  handles recurrent neurons `1024·t … 1024·t + 1023`: it stages the whole input row, the `t`-th blocks of the
  potentials and thresholds, and the `t`-th column block of the weights, and writes the `t`-th blocks of the four
  result rows. Lane `q` of a result block depends only on column `1024·t + q` of the weights, so every block is the
  restriction of ONE function of the whole arrays (the specification's `currentRow`, `newV`, `newZ`), and the four
  blocks tile each result row: after the region each result row IS that function.
-/
import proofs.«161963_j3315714752610_2_alg».proof.Proof.KernelIdealFrameP
import proofs.«161963_j3315714752610_2_alg».proof.Proof.Spec
import proofs.«161963_j3315714752610_2_alg».proof.Proof.Scalars
import proofs.«161963_j3315714752610_2_alg».proof.Proof.LibMatmulNN
import Idealize.ShloMosaic.Lib.Pipeline.Value

set_option maxRecDepth 16384

noncomputable section

open scoped BigOperators

namespace Cert.KernelIdeal.RegionA

open Cert.KernelIdeal Cert.KernelIdeal.Gen Cert.KernelIdeal.GenP
open Idealize.ShloMosaic Idealize.ShloMosaic.TcCoe Idealize.ShloMosaic.ValueIdx Idealize.SL.Sem
open Cert.Spec

theorem hz : (![0, 0] : Fin 2 → Nat) = fun _ => 0 := funext fun a => by fin_cases a <;> rfl

/-! ## The body's stored values at a lane, from the loaded blocks -/

section Payloads

variable (x0 : Vec Ideal S1x4096 .f32) (x2 : Vec Ideal S4096x1024 .f32) (x1 x3 : Vec Ideal S1x1024 .f32) (q : Fin 1024)

/-- The block product at lane `q`: the input row against column `q` of the weight block. -/
theorem pay1_at : k0_pay1 (F := Ideal) x0 x2 (ix2 0 q) = ∑ k : Fin 4096, x0 (ix2 0 k) * x2 (ix2 k q) :=
  LibMatmulNN.matmul_zero_apply 1 4096 1024 (some .fp32) x0 x2 0 q

/-- The potential before the reset at lane `q`. -/
theorem pay2_at : k0_pay2 (F := Ideal) x0 x2 x1 (ix2 0 q)
    = x1 (ix2 0 q) + Ideal.ofBits .f32 0x3DCCCCCD#32 * (-(x1 (ix2 0 q)) + ∑ k : Fin 4096, x0 (ix2 0 k) * x2 (ix2 k q)) := by
  show x1 (ix2 0 q) + Ideal.ofBits .f32 0x3DCCCCCD#32
      * ((Ideal.ofBits .f32 0x00000000#32 - x1 (ix2 0 q)) + k0_pay1 (F := Ideal) x0 x2 (ix2 0 q)) = _
  rw [pay1_at, Ideal.ofBits_zero_f32, Cert.Scalars.zero_sub_eq_neg]

/-- The spike at lane `q`. -/
theorem pay3_at : k0_pay3 (F := Ideal) x0 x2 x1 x3 (ix2 0 q)
    = FloatOps.uitofp (F := Ideal) .f32 (FloatOps.cmpf (F := Ideal) (φ := .f32) .ogt (Ideal.tanh (k0_pay2 (F := Ideal) x0 x2 x1 (ix2 0 q))) (x3 (ix2 0 q))) :=
  Cert.Scalars.sitofp_widen_eq_uitofp _

/-- The reset potential at lane `q`. -/
theorem pay4_at : k0_pay4 (F := Ideal) x0 x2 x1 x3 (ix2 0 q)
    = k0_pay2 (F := Ideal) x0 x2 x1 (ix2 0 q) * (Ideal.ofBits .f32 0x3F800000#32 - k0_pay3 (F := Ideal) x0 x2 x1 x3 (ix2 0 q)) := rfl

/-- The emitted spike at lane `q`. -/
theorem pay5_at : k0_pay5 (F := Ideal) x0 x2 x1 x3 (ix2 0 q)
    = k0_pay3 (F := Ideal) x0 x2 x1 x3 (ix2 0 q) * Ideal.ofBits .f32 0x3F800000#32 := rfl

end Payloads

/-! ## The windows' index maps, decided over the four points -/

theorem idx_facts1 : ∀ t : Fin cfg0.N, win0_1.index t (0 : Fin 2) = 0 ∧ win0_1.index t (1 : Fin 2) = t.val :=
  (by decide +kernel : ∀ t : Fin grid0.N, _)
theorem idx_facts2 : ∀ t : Fin cfg0.N, win0_2.index t (0 : Fin 2) = 0 ∧ win0_2.index t (1 : Fin 2) = t.val :=
  (by decide +kernel : ∀ t : Fin grid0.N, _)
theorem idx_facts3 : ∀ t : Fin cfg0.N, win0_3.index t (0 : Fin 2) = 0 ∧ win0_3.index t (1 : Fin 2) = t.val :=
  (by decide +kernel : ∀ t : Fin grid0.N, _)
theorem idx_facts4 : ∀ t : Fin cfg0.N, win0_4.index t (0 : Fin 2) = 0 ∧ win0_4.index t (1 : Fin 2) = t.val :=
  (by decide +kernel : ∀ t : Fin grid0.N, _)
theorem idx_facts5 : ∀ t : Fin cfg0.N, win0_5.index t (0 : Fin 2) = 0 ∧ win0_5.index t (1 : Fin 2) = t.val :=
  (by decide +kernel : ∀ t : Fin grid0.N, _)
theorem idx_facts6 : ∀ t : Fin cfg0.N, win0_6.index t (0 : Fin 2) = 0 ∧ win0_6.index t (1 : Fin 2) = t.val :=
  (by decide +kernel : ∀ t : Fin grid0.N, _)
theorem idx_facts7 : ∀ t : Fin cfg0.N, win0_7.index t (0 : Fin 2) = 0 ∧ win0_7.index t (1 : Fin 2) = t.val :=
  (by decide +kernel : ∀ t : Fin grid0.N, _)
theorem idx_facts0 : ∀ t : Fin cfg0.N, win0_0.index t (0 : Fin 2) = 0 ∧ win0_0.index t (1 : Fin 2) = 0 :=
  (by decide +kernel : ∀ t : Fin grid0.N, _)

/-- The column of the whole row that lane `q` of point `t`'s block is. -/
def gcol (t : Fin cfg0.N) (q : Fin 1024) : Fin 4096 :=
  ⟨t.val * 1024 + q.val, by have h : t.val < 4 := lt_of_lt_of_eq t.isLt N_0; omega⟩

/-! ## Where a block's element sits in its array -/

theorem emb1 (t : Fin cfg0.N) (q : Fin 1024) : ((cfg0.win 1).blk t).view.emb (ix2 (0 : Fin 1) q) = (ix2 (0 : Fin 1) (gcol t q) : SRow.Idx) := by
  have e0 : win0_1.index t (0 : Fin 2) = 0 := (idx_facts1 t).1
  have e1 : win0_1.index t (1 : Fin 2) = t.val := (idx_facts1 t).2
  funext a; apply Fin.ext
  match a with
  | ⟨0, _⟩ => show win0_1.index t (0 : Fin 2) * 1 + 1 * 0 = 0; omega
  | ⟨1, _⟩ => show win0_1.index t (1 : Fin 2) * 1024 + 1 * q.val = t.val * 1024 + q.val; omega

theorem emb3 (t : Fin cfg0.N) (q : Fin 1024) : ((cfg0.win 3).blk t).view.emb (ix2 (0 : Fin 1) q) = (ix2 (0 : Fin 1) (gcol t q) : SRow.Idx) := by
  have e0 : win0_3.index t (0 : Fin 2) = 0 := (idx_facts3 t).1
  have e1 : win0_3.index t (1 : Fin 2) = t.val := (idx_facts3 t).2
  funext a; apply Fin.ext
  match a with
  | ⟨0, _⟩ => show win0_3.index t (0 : Fin 2) * 1 + 1 * 0 = 0; omega
  | ⟨1, _⟩ => show win0_3.index t (1 : Fin 2) * 1024 + 1 * q.val = t.val * 1024 + q.val; omega

theorem emb4 (t : Fin cfg0.N) (q : Fin 1024) : ((cfg0.win 4).blk t).view.emb (ix2 (0 : Fin 1) q) = (ix2 (0 : Fin 1) (gcol t q) : SRow.Idx) := by
  have e0 : win0_4.index t (0 : Fin 2) = 0 := (idx_facts4 t).1
  have e1 : win0_4.index t (1 : Fin 2) = t.val := (idx_facts4 t).2
  funext a; apply Fin.ext
  match a with
  | ⟨0, _⟩ => show win0_4.index t (0 : Fin 2) * 1 + 1 * 0 = 0; omega
  | ⟨1, _⟩ => show win0_4.index t (1 : Fin 2) * 1024 + 1 * q.val = t.val * 1024 + q.val; omega

theorem emb5 (t : Fin cfg0.N) (q : Fin 1024) : ((cfg0.win 5).blk t).view.emb (ix2 (0 : Fin 1) q) = (ix2 (0 : Fin 1) (gcol t q) : SRow.Idx) := by
  have e0 : win0_5.index t (0 : Fin 2) = 0 := (idx_facts5 t).1
  have e1 : win0_5.index t (1 : Fin 2) = t.val := (idx_facts5 t).2
  funext a; apply Fin.ext
  match a with
  | ⟨0, _⟩ => show win0_5.index t (0 : Fin 2) * 1 + 1 * 0 = 0; omega
  | ⟨1, _⟩ => show win0_5.index t (1 : Fin 2) * 1024 + 1 * q.val = t.val * 1024 + q.val; omega

theorem emb6 (t : Fin cfg0.N) (q : Fin 1024) : ((cfg0.win 6).blk t).view.emb (ix2 (0 : Fin 1) q) = (ix2 (0 : Fin 1) (gcol t q) : SRow.Idx) := by
  have e0 : win0_6.index t (0 : Fin 2) = 0 := (idx_facts6 t).1
  have e1 : win0_6.index t (1 : Fin 2) = t.val := (idx_facts6 t).2
  funext a; apply Fin.ext
  match a with
  | ⟨0, _⟩ => show win0_6.index t (0 : Fin 2) * 1 + 1 * 0 = 0; omega
  | ⟨1, _⟩ => show win0_6.index t (1 : Fin 2) * 1024 + 1 * q.val = t.val * 1024 + q.val; omega

theorem emb7 (t : Fin cfg0.N) (q : Fin 1024) : ((cfg0.win 7).blk t).view.emb (ix2 (0 : Fin 1) q) = (ix2 (0 : Fin 1) (gcol t q) : SRow.Idx) := by
  have e0 : win0_7.index t (0 : Fin 2) = 0 := (idx_facts7 t).1
  have e1 : win0_7.index t (1 : Fin 2) = t.val := (idx_facts7 t).2
  funext a; apply Fin.ext
  match a with
  | ⟨0, _⟩ => show win0_7.index t (0 : Fin 2) * 1 + 1 * 0 = 0; omega
  | ⟨1, _⟩ => show win0_7.index t (1 : Fin 2) * 1024 + 1 * q.val = t.val * 1024 + q.val; omega

section Blocks

variable (V : (c : Dev nD) → (b : Ref sig .tc) → Buf (Elt Ideal) ((c : Thread nD τ).loc b)) (c : Dev nD) (t : Fin cfg0.N)

/-- The input row's block is the whole row. -/
theorem read0 (k : Fin 4096) : (iblk0 V c 0 t : Vec Ideal S1x4096 .f32) (ix2 0 k) = (V c main_arg0 : Row) (ix2 0 k) := by
  obtain ⟨e0, e1⟩ := idx_facts0 t
  show V c main_arg0 (((cfg0.win 0).blk t).view.emb (ix2 (0 : Fin 1) k)) = V c main_arg0 (ix2 (0 : Fin 1) k)
  refine congrArg _ ?_
  funext a; apply Fin.ext
  match a with
  | ⟨0, _⟩ => show win0_0.index t (0 : Fin 2) * 1 + 1 * 0 = 0; omega
  | ⟨1, _⟩ => show win0_0.index t (1 : Fin 2) * 4096 + 1 * k.val = k.val; omega

/-- The weight block at point `t` is columns `1024·t …` of the weights. -/
theorem read2 (k : Fin 4096) (q : Fin 1024) :
    (iblk0 V c 2 t : Vec Ideal S4096x1024 .f32) (ix2 k q) = (V c main_arg5 : Mat) (ix2 k (gcol t q)) := by
  obtain ⟨e0, e1⟩ := idx_facts2 t
  show V c main_arg5 (((cfg0.win 2).blk t).view.emb (ix2 k q)) = V c main_arg5 (ix2 k (gcol t q))
  refine congrArg _ ?_
  funext a; apply Fin.ext
  match a with
  | ⟨0, _⟩ => show win0_2.index t (0 : Fin 2) * 4096 + 1 * k.val = k.val; omega
  | ⟨1, _⟩ => show win0_2.index t (1 : Fin 2) * 1024 + 1 * q.val = t.val * 1024 + q.val; omega

/-- The potentials' block. -/
theorem read1 (q : Fin 1024) : (iblk0 V c 1 t : Vec Ideal S1x1024 .f32) (ix2 0 q) = (V c main_arg1 : Row) (ix2 0 (gcol t q)) := by
  show V c main_arg1 (((cfg0.win 1).blk t).view.emb (ix2 (0 : Fin 1) q)) = _
  rw [emb1]

/-- The thresholds' block. -/
theorem read3 (q : Fin 1024) : (iblk0 V c 3 t : Vec Ideal S1x1024 .f32) (ix2 0 q) = (V c main_arg6 : Row) (ix2 0 (gcol t q)) := by
  show V c main_arg6 (((cfg0.win 3).blk t).view.emb (ix2 (0 : Fin 1) q)) = _
  rw [emb3]

/-- The block product at lane `q` of point `t` is the current into neuron `1024·t + q`. -/
theorem current_at (q : Fin 1024) :
    k0_pay1 (F := Ideal) (iblk0 V c 0 t) (iblk0 V c 2 t) (ix2 0 q) = current (V c main_arg0) (V c main_arg5) (gcol t q) := by
  rw [pay1_at]
  unfold current
  refine Finset.sum_congr rfl fun k _ => ?_
  rw [read0 V c t k, read2 V c t k q]

/-- The potential at lane `q` of point `t`. -/
theorem potential_at (q : Fin 1024) :
    k0_pay2 (F := Ideal) (iblk0 V c 0 t) (iblk0 V c 2 t) (iblk0 V c 1 t) (ix2 0 q)
      = potential (V c main_arg0) (V c main_arg1) (V c main_arg5) (gcol t q) := by
  rw [pay2_at, ← pay1_at, current_at V c t q, read1 V c t q]
  rfl

/-- The spike at lane `q` of point `t`. -/
theorem spike_at (q : Fin 1024) :
    k0_pay3 (F := Ideal) (iblk0 V c 0 t) (iblk0 V c 2 t) (iblk0 V c 1 t) (iblk0 V c 3 t) (ix2 0 q)
      = spike (V c main_arg0) (V c main_arg1) (V c main_arg6) (V c main_arg5) (gcol t q) := by
  rw [pay3_at, potential_at V c t q, read3 V c t q]
  rfl

/-! ## What each point writes back is its block of one function of the arrays -/

theorem flushed7_eq : (dat0 V c).flushed 7 t
    = ((cfg0.win 7).blk t).view.read (Elt Ideal) (currentRow (V c main_arg0) (V c main_arg5)) := by
  show (cfg0.win 7).cut (grid0.coords t) ((dat0 V c).after 7 t) = _
  rw [after0_7]
  unfold out0_7
  rw [View.canon_unit_zero hz]
  simp only [View.ld_unit_zero (S := S1x4096) hz, View.ld_unit_zero (S := S4096x1024) hz]
  funext j
  obtain ⟨p, q, rfl⟩ : ∃ (p : Fin 1) (q : Fin 1024), j = ix2 p q := ⟨j 0, j 1, eq_ix2 j⟩
  obtain rfl : p = 0 := Subsingleton.elim _ _
  show k0_pay1 (F := Ideal) (iblk0 V c 0 t) (iblk0 V c 2 t) (ix2 0 q)
    = currentRow (V c main_arg0) (V c main_arg5) (((cfg0.win 7).blk t).view.emb (ix2 (0 : Fin 1) q))
  rw [emb7, current_at V c t q]
  rfl

theorem flushed4_eq : (dat0 V c).flushed 4 t
    = ((cfg0.win 4).blk t).view.read (Elt Ideal) (newV (V c main_arg0) (V c main_arg1) (V c main_arg6) (V c main_arg5)) := by
  show (cfg0.win 4).cut (grid0.coords t) ((dat0 V c).after 4 t) = _
  rw [after0_4]
  unfold out0_4
  rw [View.canon_unit_zero hz]
  simp only [View.ld_unit_zero (S := S1x4096) hz, View.ld_unit_zero (S := S4096x1024) hz, View.ld_unit_zero (S := S1x1024) hz]
  funext j
  obtain ⟨p, q, rfl⟩ : ∃ (p : Fin 1) (q : Fin 1024), j = ix2 p q := ⟨j 0, j 1, eq_ix2 j⟩
  obtain rfl : p = 0 := Subsingleton.elim _ _
  show k0_pay4 (F := Ideal) (iblk0 V c 0 t) (iblk0 V c 2 t) (iblk0 V c 1 t) (iblk0 V c 3 t) (ix2 0 q)
    = newV (V c main_arg0) (V c main_arg1) (V c main_arg6) (V c main_arg5) (((cfg0.win 4).blk t).view.emb (ix2 (0 : Fin 1) q))
  rw [emb4, pay4_at, potential_at V c t q, spike_at V c t q]
  rfl

theorem flushed5_eq : (dat0 V c).flushed 5 t
    = ((cfg0.win 5).blk t).view.read (Elt Ideal) (newV (V c main_arg0) (V c main_arg1) (V c main_arg6) (V c main_arg5)) := by
  show (cfg0.win 5).cut (grid0.coords t) ((dat0 V c).after 5 t) = _
  rw [after0_5]
  unfold out0_5
  rw [View.canon_unit_zero hz]
  simp only [View.ld_unit_zero (S := S1x4096) hz, View.ld_unit_zero (S := S4096x1024) hz, View.ld_unit_zero (S := S1x1024) hz]
  funext j
  obtain ⟨p, q, rfl⟩ : ∃ (p : Fin 1) (q : Fin 1024), j = ix2 p q := ⟨j 0, j 1, eq_ix2 j⟩
  obtain rfl : p = 0 := Subsingleton.elim _ _
  show k0_pay4 (F := Ideal) (iblk0 V c 0 t) (iblk0 V c 2 t) (iblk0 V c 1 t) (iblk0 V c 3 t) (ix2 0 q)
    = newV (V c main_arg0) (V c main_arg1) (V c main_arg6) (V c main_arg5) (((cfg0.win 5).blk t).view.emb (ix2 (0 : Fin 1) q))
  rw [emb5, pay4_at, potential_at V c t q, spike_at V c t q]
  rfl

theorem flushed6_eq : (dat0 V c).flushed 6 t
    = ((cfg0.win 6).blk t).view.read (Elt Ideal) (newZ (V c main_arg0) (V c main_arg1) (V c main_arg6) (V c main_arg5)) := by
  show (cfg0.win 6).cut (grid0.coords t) ((dat0 V c).after 6 t) = _
  rw [after0_6]
  unfold out0_6
  rw [View.canon_unit_zero hz]
  simp only [View.ld_unit_zero (S := S1x4096) hz, View.ld_unit_zero (S := S4096x1024) hz, View.ld_unit_zero (S := S1x1024) hz]
  funext j
  obtain ⟨p, q, rfl⟩ : ∃ (p : Fin 1) (q : Fin 1024), j = ix2 p q := ⟨j 0, j 1, eq_ix2 j⟩
  obtain rfl : p = 0 := Subsingleton.elim _ _
  show k0_pay5 (F := Ideal) (iblk0 V c 0 t) (iblk0 V c 2 t) (iblk0 V c 1 t) (iblk0 V c 3 t) (ix2 0 q)
    = newZ (V c main_arg0) (V c main_arg1) (V c main_arg6) (V c main_arg5) (((cfg0.win 6).blk t).view.emb (ix2 (0 : Fin 1) q))
  rw [emb6, pay5_at, spike_at V c t q]
  rfl

end Blocks

/-! ## The blocks tile each result row -/

theorem mem_blk4 (t : Fin cfg0.N) (i : SRow.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_v0_0).slice (win0_4.rect t)).set ↔ _
  rw [View.set_slice_whole, Rect.mem_set_unit]
  exact Iff.rfl

/-- The four blocks tile the row: column `q` lies in the block of point `q / 1024`. -/
theorem cover4 (i : SRow.Idx) : ∃ t : Fin cfg0.N, (cfg0.win 4).flush t = true ∧ i ∈ ((cfg0.win 4).blk t).view.set := by
  have hi0 : (i 0).val < 1 := idx2_lt0 i
  have hi1 : (i 1).val < 4096 := idx2_lt1 i
  refine ⟨⟨(i 1).val / 1024, by rw [show cfg0.N = 4 from N_0]; omega⟩, flush0_4 _, ?_⟩
  rw [mem_blk4]
  obtain ⟨e0, e1⟩ := idx_facts4 ⟨(i 1).val / 1024, by rw [show cfg0.N = 4 from N_0]; omega⟩
  intro a
  match a with
  | ⟨0, _⟩ => show win0_4.index _ (0 : Fin 2) * 1 ≤ (i 0).val ∧ (i 0).val < win0_4.index _ (0 : Fin 2) * 1 + 1; rw [e0]; omega
  | ⟨1, _⟩ => show win0_4.index _ (1 : Fin 2) * 1024 ≤ (i 1).val ∧ (i 1).val < win0_4.index _ (1 : Fin 2) * 1024 + 1024; rw [e1]; show (i 1).val / 1024 * 1024 ≤ (i 1).val ∧ (i 1).val < (i 1).val / 1024 * 1024 + 1024; omega

theorem mem_blk5 (t : Fin cfg0.N) (i : SRow.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_v0_1).slice (win0_5.rect t)).set ↔ _
  rw [View.set_slice_whole, Rect.mem_set_unit]
  exact Iff.rfl

/-- The four blocks tile the row: column `q` lies in the block of point `q / 1024`. -/
theorem cover5 (i : SRow.Idx) : ∃ t : Fin cfg0.N, (cfg0.win 5).flush t = true ∧ i ∈ ((cfg0.win 5).blk t).view.set := by
  have hi0 : (i 0).val < 1 := idx2_lt0 i
  have hi1 : (i 1).val < 4096 := idx2_lt1 i
  refine ⟨⟨(i 1).val / 1024, by rw [show cfg0.N = 4 from N_0]; omega⟩, flush0_5 _, ?_⟩
  rw [mem_blk5]
  obtain ⟨e0, e1⟩ := idx_facts5 ⟨(i 1).val / 1024, by rw [show cfg0.N = 4 from N_0]; omega⟩
  intro a
  match a with
  | ⟨0, _⟩ => show win0_5.index _ (0 : Fin 2) * 1 ≤ (i 0).val ∧ (i 0).val < win0_5.index _ (0 : Fin 2) * 1 + 1; rw [e0]; omega
  | ⟨1, _⟩ => show win0_5.index _ (1 : Fin 2) * 1024 ≤ (i 1).val ∧ (i 1).val < win0_5.index _ (1 : Fin 2) * 1024 + 1024; rw [e1]; show (i 1).val / 1024 * 1024 ≤ (i 1).val ∧ (i 1).val < (i 1).val / 1024 * 1024 + 1024; omega

theorem mem_blk6 (t : Fin cfg0.N) (i : SRow.Idx) :
    i ∈ ((cfg0.win 6).blk t).view.set ↔ ∀ a : Fin 2, win0_6.index t a * S1x1024.size a ≤ (i a).val ∧ (i a).val < win0_6.index t a * S1x1024.size a + S1x1024.size a := by
  show i ∈ ((View.whole main_v0_2).slice (win0_6.rect t)).set ↔ _
  rw [View.set_slice_whole, Rect.mem_set_unit]
  exact Iff.rfl

/-- The four blocks tile the row: column `q` lies in the block of point `q / 1024`. -/
theorem cover6 (i : SRow.Idx) : ∃ t : Fin cfg0.N, (cfg0.win 6).flush t = true ∧ i ∈ ((cfg0.win 6).blk t).view.set := by
  have hi0 : (i 0).val < 1 := idx2_lt0 i
  have hi1 : (i 1).val < 4096 := idx2_lt1 i
  refine ⟨⟨(i 1).val / 1024, by rw [show cfg0.N = 4 from N_0]; omega⟩, flush0_6 _, ?_⟩
  rw [mem_blk6]
  obtain ⟨e0, e1⟩ := idx_facts6 ⟨(i 1).val / 1024, by rw [show cfg0.N = 4 from N_0]; omega⟩
  intro a
  match a with
  | ⟨0, _⟩ => show win0_6.index _ (0 : Fin 2) * 1 ≤ (i 0).val ∧ (i 0).val < win0_6.index _ (0 : Fin 2) * 1 + 1; rw [e0]; omega
  | ⟨1, _⟩ => show win0_6.index _ (1 : Fin 2) * 1024 ≤ (i 1).val ∧ (i 1).val < win0_6.index _ (1 : Fin 2) * 1024 + 1024; rw [e1]; show (i 1).val / 1024 * 1024 ≤ (i 1).val ∧ (i 1).val < (i 1).val / 1024 * 1024 + 1024; omega

theorem mem_blk7 (t : Fin cfg0.N) (i : SRow.Idx) :
    i ∈ ((cfg0.win 7).blk t).view.set ↔ ∀ a : Fin 2, win0_7.index t a * S1x1024.size a ≤ (i a).val ∧ (i a).val < win0_7.index t a * S1x1024.size a + S1x1024.size a := by
  show i ∈ ((View.whole main_v0_3).slice (win0_7.rect t)).set ↔ _
  rw [View.set_slice_whole, Rect.mem_set_unit]
  exact Iff.rfl

/-- The four blocks tile the row: column `q` lies in the block of point `q / 1024`. -/
theorem cover7 (i : SRow.Idx) : ∃ t : Fin cfg0.N, (cfg0.win 7).flush t = true ∧ i ∈ ((cfg0.win 7).blk t).view.set := by
  have hi0 : (i 0).val < 1 := idx2_lt0 i
  have hi1 : (i 1).val < 4096 := idx2_lt1 i
  refine ⟨⟨(i 1).val / 1024, by rw [show cfg0.N = 4 from N_0]; omega⟩, flush0_7 _, ?_⟩
  rw [mem_blk7]
  obtain ⟨e0, e1⟩ := idx_facts7 ⟨(i 1).val / 1024, by rw [show cfg0.N = 4 from N_0]; omega⟩
  intro a
  match a with
  | ⟨0, _⟩ => show win0_7.index _ (0 : Fin 2) * 1 ≤ (i 0).val ∧ (i 0).val < win0_7.index _ (0 : Fin 2) * 1 + 1; rw [e0]; omega
  | ⟨1, _⟩ => show win0_7.index _ (1 : Fin 2) * 1024 ≤ (i 1).val ∧ (i 1).val < win0_7.index _ (1 : Fin 2) * 1024 + 1024; rw [e1]; show (i 1).val / 1024 * 1024 ≤ (i 1).val ∧ (i 1).val < (i 1).val / 1024 * 1024 + 1024; omega

/-! ## The result rows after the region -/

section Final

variable (V : (c : Dev nD) → (b : Ref sig .tc) → Buf (Elt Ideal) ((c : Thread nD τ).loc b)) (c : Dev nD)

theorem final7 : (dat0 V c).arrAt 7 cfg0.N = currentRow (V c main_arg0) (V c main_arg5) :=
  (dat0 V c).arrAt_eq_of_cover 7 _ (fun t _ => flushed7_eq V c t) cover7

theorem final4 : (dat0 V c).arrAt 4 cfg0.N = newV (V c main_arg0) (V c main_arg1) (V c main_arg6) (V c main_arg5) :=
  (dat0 V c).arrAt_eq_of_cover 4 _ (fun t _ => flushed4_eq V c t) cover4

theorem final5 : (dat0 V c).arrAt 5 cfg0.N = newV (V c main_arg0) (V c main_arg1) (V c main_arg6) (V c main_arg5) :=
  (dat0 V c).arrAt_eq_of_cover 5 _ (fun t _ => flushed5_eq V c t) cover5

theorem final6 : (dat0 V c).arrAt 6 cfg0.N = newZ (V c main_arg0) (V c main_arg1) (V c main_arg6) (V c main_arg5) :=
  (dat0 V c).arrAt_eq_of_cover 6 _ (fun t _ => flushed6_eq V c t) cover6

end Final

end Cert.KernelIdeal.RegionA

end
-- ==== Proof.LibBroadcast2.lean ====
/-
  Two keep-dims broadcasts of small matrices read at an index: a column `[a, 1]` broadcast along the lanes to
  `[a, b]` reads, at `(p, c)`, the column's element `p`; a single element `[1, 1]` broadcast to `[a, b]` reads that
  element everywhere. (The row form `[1, b] → [a, b]` is the library's.)
-/
import Idealize.ShloMosaic.Lib.Pipeline.Value
import Idealize.ShloMosaic.Lib.ValueIdx

noncomputable section

namespace LibBroadcast2

open Idealize.ShloMosaic Idealize.ShloMosaic.ValueIdx

variable {α : Type}

/-- A `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end LibBroadcast2

end
-- ==== Proof.RegionB.lean ====
/-
  The second kernel (the outer-product weight update with the sign-constraint clip), read as values. Its grid is
  4 × 2: point `(a, b)` handles weight rows `2048 + 512·a …` and columns `2048·b …`: it stages that block of the
  weights, the matching 512 entries of the input column, the matching 2048 entries of the current row and the one
  surprise value, and writes the updated block into the result, which starts out as a copy of the weights. The top
  2048 rows are visited by no point and keep the copy. Entry `(p, q)` of an updated block is
  `min (hi) (max (lo) (w + (0 - col[p] · cur[q]) · s))` with the bounds chosen by the block's column tile: tile 0 is
  columns below 2048 (bounds `-∞, 0`), tile 1 columns from 2048 on (bounds `0, +∞`).
-/
import proofs.«161963_j3315714752610_2_alg».proof.Proof.KernelIdealFrameP
import proofs.«161963_j3315714752610_2_alg».proof.Proof.Spec
import proofs.«161963_j3315714752610_2_alg».proof.Proof.Scalars
import proofs.«161963_j3315714752610_2_alg».proof.Proof.LibBroadcast2
import Idealize.ShloMosaic.Lib.Pipeline.Value
import Idealize.ShloMosaic.Lib.ValueLayout

set_option maxRecDepth 16384

noncomputable section

namespace Cert.KernelIdeal.RegionB

open Cert.KernelIdeal Cert.KernelIdeal.Gen Cert.KernelIdeal.GenP
open Idealize.ShloMosaic Idealize.ShloMosaic.TcCoe Idealize.ShloMosaic.ValueIdx Idealize.SL.Sem
open Cert.Spec

theorem hz : (![0, 0] : Fin 2 → Nat) = fun _ => 0 := funext fun a => by fin_cases a <;> rfl

/-! ## The stored value at an entry, from the loaded blocks -/

section Payload

variable (i : grid1.Coords) (v14 : Vec Ideal S512x1 .f32) (v16 : Vec Ideal S1x2048 .f32) (v23 : Vec Ideal S1x1 .f32)
  (v27 : Vec Ideal S512x2048 .f32) (p : Fin 512) (q : Fin 2048)

/-- The column mask's bit at lane `q`: is column `2048·(tile) + q` below 2048? -/
abbrev maskBit : BitVec 1 :=
  IntOp.cmpi .slt (IntOp.addi (Scalar.muli (BitVec.ofNat 32 (i 1).val) 2048#32) (BitVec.ofNat 32 q.val)) 2048#32

/-- The stored value at `(p, q)`, every vector operation read at the entry. -/
theorem pay_at_raw : k1_pay1 (F := Ideal) i v14 v16 v23 v27 (ix2 p q)
    = min (Scalar.select (maskBit i q) (Ideal.ofBits .f32 0x00000000#32) (Ideal.ofBits .f32 0x7F800000#32))
        (max (Scalar.select (maskBit i q) (Ideal.ofBits .f32 0xFF800000#32) (Ideal.ofBits .f32 0x00000000#32))
          (v27 (ix2 p q) + (Ideal.ofBits .f32 0x00000000#32 - v14 (ix2 p 0) * v16 (ix2 0 q)) * v23 (ix2 0 0))) := by
  unfold k1_pay1
  dsimp only
  rw [minimumf_apply, maximumf_apply, addf_apply, mulf_apply, subf_apply, mulf_apply]
  rw [LibBroadcast2.broadcastTo_11_ab_apply, LibBroadcast2.broadcastTo_a1_ab_apply,
    broadcastTo_1b_ab_apply, broadcastTo_1b_ab_apply, broadcastTo_1b_ab_apply]
  rw [shapeCast_self, shapeCast_self, shapeCast_self, select_apply, select_apply]
  rw [show cmpi .slt (addi (broadcast S1x2048 (Scalar.muli (BitVec.ofNat 32 (i 1).val) 2048#32)) (iota .tc S1x2048 32 [1] iota_S1x2048_d1_w32))
        (broadcast S1x2048 2048#32) (ix2 (0 : Fin 1) q) = maskBit i q from by
      show IntOp.cmpi .slt (IntOp.addi _ (iota .tc S1x2048 32 [1] iota_S1x2048_d1_w32 (ix2 (0 : Fin 1) q))) _ = _
      rw [iota_single_apply]
      rfl]
  rfl

/-- The stored value at `(p, q)` in column tile `b`: the clip bounds are those of column `2048·b + q`. -/
theorem pay_at (b : Nat) (hb : (i 1).val = b) (hb2 : b < 2) :
    k1_pay1 (F := Ideal) i v14 v16 v23 v27 (ix2 p q)
      = min (hi (b * 2048 + q.val)) (max (lo (b * 2048 + q.val))
          (v27 (ix2 p q) + (-(v14 (ix2 p 0) * v16 (ix2 0 q))) * v23 (ix2 0 0))) := by
  rw [pay_at_raw, Ideal.ofBits_zero_f32, Cert.Scalars.ofBits_posInf, Cert.Scalars.ofBits_negInf, Cert.Scalars.zero_sub_eq_neg]
  have hq := q.isLt
  obtain rfl | rfl : b = 0 ∨ b = 1 := by omega
  · have hm : maskBit i q = 1#1 := by
      show IntOp.cmpi .slt (IntOp.addi (Scalar.muli (BitVec.ofNat 32 (i 1).val) 2048#32) (BitVec.ofNat 32 q.val)) 2048#32 = 1#1
      rw [hb]; exact Cert.Scalars.lane_below_tile0 q
    rw [hm, select_one, select_one]
    unfold hi lo
    rw [if_pos (by omega), if_pos (by omega)]
  · have hm : maskBit i q = 0#1 := by
      show IntOp.cmpi .slt (IntOp.addi (Scalar.muli (BitVec.ofNat 32 (i 1).val) 2048#32) (BitVec.ofNat 32 q.val)) 2048#32 = 0#1
      rw [hb]; exact Cert.Scalars.lane_below_tile1 q
    rw [hm, select_zero, select_zero]
    unfold hi lo
    rw [if_neg (by omega), if_neg (by omega)]

end Payload

/-! ## The windows' index maps, decided over the eight points -/

theorem idx_facts : ∀ t : Fin cfg1.N,
      win1_0.index t (0 : Fin 2) = 4 + t.val / 2 ∧ win1_0.index t (1 : Fin 2) = t.val % 2
    ∧ win1_1.index t (0 : Fin 2) = t.val / 2 ∧ win1_1.index t (1 : Fin 2) = 0
    ∧ win1_2.index t (0 : Fin 2) = 0 ∧ win1_2.index t (1 : Fin 2) = t.val % 2
    ∧ win1_3.index t (0 : Fin 2) = 0 ∧ win1_3.index t (1 : Fin 2) = 0
    ∧ win1_4.index t (0 : Fin 2) = 4 + t.val / 2 ∧ win1_4.index t (1 : Fin 2) = t.val % 2
    ∧ ((grid1.coords t) 1).val = t.val % 2 :=
  (by decide +kernel : ∀ t : Fin grid1.N, _)

theorem t_lt (t : Fin cfg1.N) : t.val < 8 := lt_of_lt_of_eq t.isLt N_1

/-- The weight row that row `p` of point `t`'s block is. -/
def grow (t : Fin cfg1.N) (p : Fin 512) : Fin 4096 := ⟨2048 + t.val / 2 * 512 + p.val, by have := t_lt t; omega⟩
/-- The weight column that lane `q` of point `t`'s block is. -/
def gcol (t : Fin cfg1.N) (q : Fin 2048) : Fin 4096 := ⟨t.val % 2 * 2048 + q.val, by have := t_lt t; omega⟩
/-- The entry of the input column that row `p` of point `t`'s block reads. -/
def crow (t : Fin cfg1.N) (p : Fin 512) : Fin 2048 := ⟨(grow t p).val - 2048, by have := t_lt t; show 2048 + t.val / 2 * 512 + p.val - 2048 < 2048; omega⟩

/-- The updated weights where the kernel writes them, from the arrays the region finds: the weights `w`, the
    input column `colv`, the current row `cur`, the surprise `s`. -/
def updated (w : Mat) (colv : FVec Ideal ⟨2, ![2048, 1]⟩ .f32) (cur : Row) (s : One) : Mat := fun i =>
  if h : 2048 ≤ (i 0).val then
    min (hi (i 1).val) (max (lo (i 1).val)
      (w i + (-(colv (ix2 ⟨(i 0).val - 2048, by have := idx2_lt0 i; omega⟩ (0 : Fin 1)) * cur (ix2 (0 : Fin 1) ⟨(i 1).val, idx2_lt1 i⟩))) * s (ix2 0 0)))
  else w i

section Blocks

variable (V : (c : Dev nD) → (b : Ref sig .tc) → Buf (Elt Ideal) ((c : Thread nD τ).loc b)) (c : Dev nD) (t : Fin cfg1.N)

theorem emb4 (p : Fin 512) (q : Fin 2048) :
    ((cfg1.win 4).blk t).view.emb (ix2 p q) = (ix2 (grow t p) (gcol t q) : SMat.Idx) := by
  obtain ⟨-, -, -, -, -, -, -, -, e0, e1, -⟩ := idx_facts t
  funext a; apply Fin.ext
  match a with
  | ⟨0, _⟩ => show win1_4.index t (0 : Fin 2) * 512 + 1 * p.val = 2048 + t.val / 2 * 512 + p.val; omega
  | ⟨1, _⟩ => show win1_4.index t (1 : Fin 2) * 2048 + 1 * q.val = t.val % 2 * 2048 + q.val; omega

/-- The weight block. -/
theorem read0 (p : Fin 512) (q : Fin 2048) :
    (iblk1 V c 0 t : Vec Ideal S512x2048 .f32) (ix2 p q) = (V c main_arg5 : Mat) (ix2 (grow t p) (gcol t q)) := by
  obtain ⟨e0, e1, -⟩ := idx_facts t
  show V c main_arg5 (((cfg1.win 0).blk t).view.emb (ix2 p q)) = V c main_arg5 (ix2 (grow t p) (gcol t q))
  refine congrArg _ ?_
  funext a; apply Fin.ext
  match a with
  | ⟨0, _⟩ => show win1_0.index t (0 : Fin 2) * 512 + 1 * p.val = 2048 + t.val / 2 * 512 + p.val; omega
  | ⟨1, _⟩ => show win1_0.index t (1 : Fin 2) * 2048 + 1 * q.val = t.val % 2 * 2048 + q.val; omega

/-- The input column's block. -/
theorem read1 (p : Fin 512) :
    (iblk1 V c 1 t : Vec Ideal S512x1 .f32) (ix2 p 0) = (V c main_v24 : FVec Ideal ⟨2, ![2048, 1]⟩ .f32) (ix2 (crow t p) (0 : Fin 1)) := by
  obtain ⟨-, -, e0, e1, -⟩ := idx_facts t
  show V c main_v24 (((cfg1.win 1).blk t).view.emb (ix2 p (0 : Fin 1))) = V c main_v24 (ix2 (crow t p) (0 : Fin 1))
  refine congrArg _ ?_
  funext a; apply Fin.ext
  match a with
  | ⟨0, _⟩ => show win1_1.index t (0 : Fin 2) * 512 + 1 * p.val = 2048 + t.val / 2 * 512 + p.val - 2048; omega
  | ⟨1, _⟩ => show win1_1.index t (1 : Fin 2) * 1 + 1 * 0 = 0; omega

/-- The current row's block. -/
theorem read2 (q : Fin 2048) :
    (iblk1 V c 2 t : Vec Ideal S1x2048 .f32) (ix2 0 q) = (V c main_v0_3 : Row) (ix2 (0 : Fin 1) (gcol t q)) := by
  obtain ⟨-, -, -, -, e0, e1, -⟩ := idx_facts t
  show V c main_v0_3 (((cfg1.win 2).blk t).view.emb (ix2 (0 : Fin 1) q)) = V c main_v0_3 (ix2 (0 : Fin 1) (gcol t q))
  refine congrArg _ ?_
  funext a; apply Fin.ext
  match a with
  | ⟨0, _⟩ => show win1_2.index t (0 : Fin 2) * 1 + 1 * 0 = 0; omega
  | ⟨1, _⟩ => show win1_2.index t (1 : Fin 2) * 2048 + 1 * q.val = t.val % 2 * 2048 + q.val; omega

/-- The surprise's block is the surprise. -/
theorem read3 : (iblk1 V c 3 t : Vec Ideal S1x1 .f32) (ix2 0 0) = (V c main_v22 : One) (ix2 (0 : Fin 1) (0 : Fin 1)) := by
  obtain ⟨-, -, -, -, -, -, e0, e1, -⟩ := idx_facts t
  show V c main_v22 (((cfg1.win 3).blk t).view.emb (ix2 (0 : Fin 1) (0 : Fin 1))) = V c main_v22 (ix2 (0 : Fin 1) (0 : Fin 1))
  refine congrArg _ ?_
  funext a; apply Fin.ext
  match a with
  | ⟨0, _⟩ => show win1_3.index t (0 : Fin 2) * 1 + 1 * 0 = 0; omega
  | ⟨1, _⟩ => show win1_3.index t (1 : Fin 2) * 1 + 1 * 0 = 0; omega

/-- WHAT POINT `t` WRITES BACK is its block of `updated` of the arrays the region finds. -/
theorem flushed4_eq : (dat1 V c).flushed 4 t
    = ((cfg1.win 4).blk t).view.read (Elt Ideal) (updated (V c main_arg5) (V c main_v24) (V c main_v0_3) (V c main_v22)) := by
  show (cfg1.win 4).cut (grid1.coords t) ((dat1 V c).after 4 t) = _
  rw [after1_4]
  unfold out1_4
  rw [View.canon_unit_zero hz]
  simp only [View.ld_unit_zero (S := S512x1) hz, View.ld_unit_zero (S := S1x2048) hz, View.ld_unit_zero (S := S1x1) hz,
    View.ld_unit_zero (S := S512x2048) hz]
  funext j
  obtain ⟨p, q, rfl⟩ : ∃ (p : Fin 512) (q : Fin 2048), j = ix2 p q := ⟨j 0, j 1, eq_ix2 j⟩
  have hc : ((grid1.coords t) 1).val = t.val % 2 := (idx_facts t).2.2.2.2.2.2.2.2.2.2
  have ht := t_lt t
  show k1_pay1 (F := Ideal) (grid1.coords t) (iblk1 V c 1 t) (iblk1 V c 2 t) (iblk1 V c 3 t) (iblk1 V c 0 t) (ix2 p q)
    = updated (V c main_arg5) (V c main_v24) (V c main_v0_3) (V c main_v22) (((cfg1.win 4).blk t).view.emb (ix2 p q))
  rw [emb4, pay_at (grid1.coords t) _ _ _ _ p q (t.val % 2) hc (by omega), read0 V c t p q, read1 V c t p, read2 V c t q, read3 V c t]
  unfold updated
  rw [dif_pos (show 2048 ≤ ((ix2 (grow t p) (gcol t q) : SMat.Idx) 0).val from by show 2048 ≤ 2048 + t.val / 2 * 512 + p.val; omega)]
  rfl

end Blocks

/-! ## Which entries some point covers: the rows from 2048 on -/

theorem mem_blk4 (t : Fin cfg1.N) (i : SMat.Idx) :
    i ∈ ((cfg1.win 4).blk t).view.set ↔ ∀ a : Fin 2, win1_4.index t a * S512x2048.size a ≤ (i a).val ∧ (i a).val < win1_4.index t a * S512x2048.size a + S512x2048.size a := by
  show i ∈ ((View.whole main_v25).slice (win1_4.rect t)).set ↔ _
  rw [View.set_slice_whole, Rect.mem_set_unit]
  exact Iff.rfl

theorem covered_iff4 (i : SMat.Idx) :
    (∃ t : Fin cfg1.N, (cfg1.win 4).flush t = true ∧ i ∈ ((cfg1.win 4).blk t).view.set) ↔ 2048 ≤ (i 0).val := by
  have hi0 : (i 0).val < 4096 := idx2_lt0 i
  have hi1 : (i 1).val < 4096 := idx2_lt1 i
  constructor
  · rintro ⟨t, -, hi⟩
    rw [mem_blk4] at hi
    have b0 : win1_4.index t (0 : Fin 2) * 512 ≤ (i 0).val ∧ (i 0).val < win1_4.index t (0 : Fin 2) * 512 + 512 := hi 0
    obtain ⟨-, -, -, -, -, -, -, -, e0, e1, -⟩ := idx_facts t
    omega
  · intro h
    have hlt : ((i 0).val - 2048) / 512 * 2 + (i 1).val / 2048 < cfg1.N := by
      show _ < grid1.N; rw [N_1]; omega
    refine ⟨⟨((i 0).val - 2048) / 512 * 2 + (i 1).val / 2048, hlt⟩, flush1_4 _, ?_⟩
    rw [mem_blk4]
    obtain ⟨-, -, -, -, -, -, -, -, e0, e1, -⟩ := idx_facts ⟨((i 0).val - 2048) / 512 * 2 + (i 1).val / 2048, hlt⟩
    intro a
    match a with
    | ⟨0, _⟩ =>
      show win1_4.index _ (0 : Fin 2) * 512 ≤ (i 0).val ∧ (i 0).val < win1_4.index _ (0 : Fin 2) * 512 + 512
      rw [e0]; show (4 + (((i 0).val - 2048) / 512 * 2 + (i 1).val / 2048) / 2) * 512 ≤ (i 0).val ∧ (i 0).val < (4 + (((i 0).val - 2048) / 512 * 2 + (i 1).val / 2048) / 2) * 512 + 512
      omega
    | ⟨1, _⟩ =>
      show win1_4.index _ (1 : Fin 2) * 2048 ≤ (i 1).val ∧ (i 1).val < win1_4.index _ (1 : Fin 2) * 2048 + 2048
      rw [e1]; show (((i 0).val - 2048) / 512 * 2 + (i 1).val / 2048) % 2 * 2048 ≤ (i 1).val ∧ (i 1).val < (((i 0).val - 2048) / 512 * 2 + (i 1).val / 2048) % 2 * 2048 + 2048
      omega

/-! ## The result array after the region -/

/-- The updated rows where some point wrote, the copy the region found elsewhere. -/
theorem final4 (V : (c : Dev nD) → (b : Ref sig .tc) → Buf (Elt Ideal) ((c : Thread nD τ).loc b)) (c : Dev nD) :
    (dat1 V c).arrAt 4 cfg1.N = (fun i : SMat.Idx => if 2048 ≤ (i 0).val
      then updated (V c main_arg5) (V c main_v24) (V c main_v0_3) (V c main_v22) i else (V c main_v25 : Mat) i) := by
  funext i
  rw [(dat1 V c).arrAt_eq_piecewise 4 _ (fun t _ => flushed4_eq V c t) i, A_eq1]
  exact if_congr (covered_iff4 i) rfl rfl

end Cert.KernelIdeal.RegionB

end
-- ==== Proof.KernelValue.lean ====
/-
  The idealized kernel's results as the specification's functions of the argument arrays.
  Boundary by boundary: at launch every buffer is the launch memory. The first region leaves its four result rows at
  `newV`, `newV`, `newZ` and the current row of the arguments, and nothing else changed. The host stretch then
  computes, from the spikes and the previous activity, the new activity and the surprise (the two chains both
  programs share), cuts the second half of the input row and transposes it into a column, and copies the weights into
  the result buffer. The second region finds exactly those arrays; it rewrites rows 2048 … 4095 of the copy and
  leaves rows 0 … 2047 as copied. Reading the input column back through the transpose and the cut, entry `r - 2048`
  of the column is entry `r` of the input row, which makes the rewritten rows the specification's `newW`.
-/
import proofs.«161963_j3315714752610_2_alg».proof.Proof.KernelRun
import proofs.«161963_j3315714752610_2_alg».proof.Proof.RegionA
import proofs.«161963_j3315714752610_2_alg».proof.Proof.RegionB
import Idealize.ShloMosaic.Lib.StableHlo.Run
import Idealize.ShloMosaic.Lib.ValueLayout

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Cert.Spec

variable (m : (ℓ : Loc nD τ sig) → Buf (Elt Ideal) ℓ) (ρ : Dev nD → PrngReg) (c : Dev nD)

/-- The argument arrays, by name. -/
abbrev aX : Row := m ((c : Thread nD τ).loc main_arg0)
abbrev aV : Row := m ((c : Thread nD τ).loc main_arg1)
abbrev aA : One := m ((c : Thread nD τ).loc main_arg4)
abbrev aW : Mat := m ((c : Thread nD τ).loc main_arg5)
abbrev aT : Row := m ((c : Thread nD τ).loc main_arg6)

/-! ## After the first region -/

theorem W1_newV0 : (W1 m ρ c (Proc.devRef .tc main_v0_0) : Row) = newV (aX m c) (aV m c) (aT m c) (aW m c) :=
  (W1_arr m ρ c 4).trans (RegionA.final4 (V0 m ρ) c)
theorem W1_newV1 : (W1 m ρ c (Proc.devRef .tc main_v0_1) : Row) = newV (aX m c) (aV m c) (aT m c) (aW m c) :=
  (W1_arr m ρ c 5).trans (RegionA.final5 (V0 m ρ) c)
theorem W1_newZ : (W1 m ρ c (Proc.devRef .tc main_v0_2) : Row) = newZ (aX m c) (aV m c) (aT m c) (aW m c) :=
  (W1_arr m ρ c 6).trans (RegionA.final6 (V0 m ρ) c)
theorem W1_cur : (W1 m ρ c (Proc.devRef .tc main_v0_3) : Row) = currentRow (aX m c) (aW m c) :=
  (W1_arr m ρ c 7).trans (RegionA.final7 (V0 m ρ) c)
theorem W1_X : (W1 m ρ c (Proc.devRef .tc main_arg0) : Row) = aX m c :=
  (W1_arr m ρ c 0).trans (((dat0 (V0 m ρ) c).arrAt_in 0 rfl _).trans (A_eq0 (V0 m ρ) c 0))
theorem W1_W : (W1 m ρ c (Proc.devRef .tc main_arg5) : Mat) = aW m c :=
  (W1_arr m ρ c 2).trans (((dat0 (V0 m ρ) c).arrAt_in 2 rfl _).trans (A_eq0 (V0 m ρ) c 2))
theorem W1_A : (W1 m ρ c (Proc.devRef .tc main_arg4) : One) = aA m c :=
  W1_of_ne m ρ c main_arg4 (by decide)

/-! ## After the host stretch -/

/-- The new activity. -/
def act : One := popOf Facts₀.reducesTo_S1x4096_S_d0_1 Facts₀.h_S_ Facts₀.bcast_S_S1x1 (newZ (aX m c) (aV m c) (aT m c) (aW m c)) (aA m c)
/-- The surprise. -/
def sur : One := surpriseOf Facts₀.bcast_S_S1x1 (act m c)
/-- The second half of the input row, as a column. -/
def colv : FVec Ideal ⟨2, ![2048, 1]⟩ .f32 :=
  transpose S2048x1 [1, 0] (extractStridedSlice S1x2048 ![0, 2048] (aX m c) Facts₀.slices_S1x4096_S1x2048_0_2048) Facts₀.transposes_S1x2048_S2048x1_1_0

theorem W2_act : (W2 m ρ c (Proc.devRef .tc main_v6) : One) = act m c := by
  show StableHlo.after hostOps1 (W1 m ρ c) (Proc.devRef .tc main_v6) = _
  after_results
  rw [W1_newZ, W1_A]
  rfl

theorem W2_sur : (W2 m ρ c (Proc.devRef .tc main_v22) : One) = sur m c := by
  show StableHlo.after hostOps1 (W1 m ρ c) (Proc.devRef .tc main_v22) = _
  after_results_simp
  rw [W1_newZ, W1_A]
  rfl

theorem W2_col : (W2 m ρ c (Proc.devRef .tc main_v24) : FVec Ideal ⟨2, ![2048, 1]⟩ .f32) = colv m c := by
  show StableHlo.after hostOps1 (W1 m ρ c) (Proc.devRef .tc main_v24) = _
  after_results
  rw [W1_X]
  rfl

theorem W2_copy : (W2 m ρ c (Proc.devRef .tc main_v25) : Mat) = aW m c := by
  show StableHlo.after hostOps1 (W1 m ρ c) (Proc.devRef .tc main_v25) = _
  after_results
  rw [W1_W]
  rfl

theorem W2_W : (W2 m ρ c (Proc.devRef .tc main_arg5) : Mat) = aW m c := by
  show StableHlo.after hostOps1 (W1 m ρ c) (Proc.devRef .tc main_arg5) = _
  after_results
  exact W1_W m ρ c

theorem W2_cur : (W2 m ρ c (Proc.devRef .tc main_v0_3) : Row) = currentRow (aX m c) (aW m c) := by
  show StableHlo.after hostOps1 (W1 m ρ c) (Proc.devRef .tc main_v0_3) = _
  after_results
  exact W1_cur m ρ c

theorem W2_newV0 : (W2 m ρ c (Proc.devRef .tc main_v0_0) : Row) = newV (aX m c) (aV m c) (aT m c) (aW m c) := by
  show StableHlo.after hostOps1 (W1 m ρ c) (Proc.devRef .tc main_v0_0) = _
  after_results
  exact W1_newV0 m ρ c

theorem W2_newV1 : (W2 m ρ c (Proc.devRef .tc main_v0_1) : Row) = newV (aX m c) (aV m c) (aT m c) (aW m c) := by
  show StableHlo.after hostOps1 (W1 m ρ c) (Proc.devRef .tc main_v0_1) = _
  after_results
  exact W1_newV1 m ρ c

theorem W2_newZ : (W2 m ρ c (Proc.devRef .tc main_v0_2) : Row) = newZ (aX m c) (aV m c) (aT m c) (aW m c) := by
  show StableHlo.after hostOps1 (W1 m ρ c) (Proc.devRef .tc main_v0_2) = _
  after_results
  exact W1_newZ m ρ c

/-! ## After the second region -/

/-- The input column read back: entry `r - 2048` of the column is entry `r` of the input row. -/
theorem colv_apply (r : Fin 4096) (hr : 2048 ≤ r.val) :
    colv m c (ix2 (⟨r.val - 2048, by have := r.isLt; omega⟩ : Fin 2048) (0 : Fin 1)) = aX m c (ix2 (0 : Fin 1) r) := by
  unfold colv
  rw [transpose_ix2_apply, slice2_axis1_apply 2048 (aX m c) _ (0 : Fin 1) _ r (by show r.val = 2048 + (r.val - 2048); omega)]

/-- The rewritten rows are the specification's. -/
theorem updated_eq : (fun i : SMat.Idx => if 2048 ≤ (i 0).val
      then RegionB.updated (aW m c) (colv m c) (currentRow (aX m c) (aW m c)) (sur m c) i else aW m c i)
    = newW (aX m c) (aW m c) (currentRow (aX m c) (aW m c)) (sur m c) := by
  funext i
  unfold newW RegionB.updated
  by_cases h : 2048 ≤ (i 0).val
  · rw [if_pos h, dif_pos h, dif_pos h, colv_apply m c ⟨(i 0).val, idx2_lt0 i⟩ h]
  · rw [if_neg h, dif_neg h]

theorem W3_newW : (W3 m ρ c (Proc.devRef .tc main_v25) : Mat)
    = newW (aX m c) (aW m c) (currentRow (aX m c) (aW m c)) (sur m c) := by
  refine (W3_arr m ρ c 4).trans ((RegionB.final4 (V2 m ρ) c).trans ?_)
  rw [show (V2 m ρ c main_arg5 : Mat) = aW m c from W2_W m ρ c, show (V2 m ρ c main_v24 : FVec Ideal ⟨2, ![2048, 1]⟩ .f32) = colv m c from W2_col m ρ c,
    show (V2 m ρ c main_v0_3 : Row) = currentRow (aX m c) (aW m c) from W2_cur m ρ c, show (V2 m ρ c main_v22 : One) = sur m c from W2_sur m ρ c,
    show (V2 m ρ c main_v25 : Mat) = aW m c from W2_copy m ρ c]
  exact updated_eq m c

theorem W3_act : (W3 m ρ c (Proc.devRef .tc main_v6) : One) = act m c :=
  (W3_of_ne m ρ c main_v6 (by decide)).trans (W2_act m ρ c)
theorem W3_newV0 : (W3 m ρ c (Proc.devRef .tc main_v0_0) : Row) = newV (aX m c) (aV m c) (aT m c) (aW m c) :=
  (W3_of_ne m ρ c main_v0_0 (by decide)).trans (W2_newV0 m ρ c)
theorem W3_newV1 : (W3 m ρ c (Proc.devRef .tc main_v0_1) : Row) = newV (aX m c) (aV m c) (aT m c) (aW m c) :=
  (W3_of_ne m ρ c main_v0_1 (by decide)).trans (W2_newV1 m ρ c)
theorem W3_newZ : (W3 m ρ c (Proc.devRef .tc main_v0_2) : Row) = newZ (aX m c) (aV m c) (aT m c) (aW m c) :=
  (W3_of_ne m ρ c main_v0_2 (by decide)).trans (W2_newZ m ρ c)

/-! ## The run, read -/

/-- Every weakly fair execution of the idealized kernel terminates, nothing faulting, with its five results at the
    specification's functions of the argument arrays and the argument arrays unchanged. -/
theorem run : θ_run defs (onTc (τ := τ) (main (F := Ideal))) ⟨m, fun _ => 0, ρ⟩ (fun r => ∀ c : Dev nD,
      r.2.mem ((c.tc : Thread nD τ).loc main_v0_2) = newZ (aX m c) (aV m c) (aT m c) (aW m c)
      ∧ r.2.mem ((c.tc : Thread nD τ).loc main_v0_0) = newV (aX m c) (aV m c) (aT m c) (aW m c)
      ∧ r.2.mem ((c.tc : Thread nD τ).loc main_v0_1) = newV (aX m c) (aV m c) (aT m c) (aW m c)
      ∧ r.2.mem ((c.tc : Thread nD τ).loc main_v6) = act m c
      ∧ r.2.mem ((c.tc : Thread nD τ).loc main_v25) = newW (aX m c) (aW m c) (currentRow (aX m c) (aW m c)) (sur m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(read_final m ρ r h c main_v0_2 (by decide)).trans (W3_newZ m ρ c),
     (read_final m ρ r h c main_v0_0 (by decide)).trans (W3_newV0 m ρ c),
     (read_final m ρ r h c main_v0_1 (by decide)).trans (W3_newV1 m ρ c),
     (read_final m ρ r h c main_v6 (by decide)).trans (W3_act m ρ c),
     (read_final m ρ r h c main_v25 (by decide)).trans (W3_newW m ρ c),
     (read_final m ρ r h c main_arg0 (by decide)).trans (W3_main_arg0 m ρ c),
     (read_final m ρ r h c main_arg1 (by decide)).trans (W3_main_arg1 m ρ c),
     (read_final m ρ r h c main_arg2 (by decide)).trans (W3_main_arg2 m ρ c),
     (read_final m ρ r h c main_arg3 (by decide)).trans (W3_main_arg3 m ρ c),
     (read_final m ρ r h c main_arg4 (by decide)).trans (W3_main_arg4 m ρ c),
     (read_final m ρ r h c main_arg5 (by decide)).trans (W3_main_arg5 m ρ c),
     (read_final m ρ r h c main_arg6 (by decide)).trans (W3_main_arg6 m ρ c)⟩)
    (run_all m ρ)

end Cert.KernelIdeal.Whole

end
-- ==== Proof.LibScatterSet.lean ====
/-
  A host scatter whose combiner keeps the update (`x.at[…].set(v)`) and whose updates are all one value `v`:
  the result holds `v` at every operand index that some update index lands on, and the operand's own element
  everywhere else. The scatter is a left fold over the update indices in row-major order; with a constant
  update the order does not matter, and the fold is read at an index by induction over the list of update
  indices already applied: an index holds `v` exactly when one of them has landed on it.

  For the two-axis window scatter (`operand.at[r0:r0+h, c0:c0+k].set(…)`: both operand axes are window axes, the
  start index a vector of two components read off a one-axis index tensor) the landing index of update index
  `(p, q)` is `(r0 + p, c0 + q)`, when that is inside the operand.
-/
import Idealize.ShloMosaic.PureOps.ShapeOps
import Idealize.ShloMosaic.Lib.ValueIdx

noncomputable section

namespace LibScatterSet

open Idealize.ShloMosaic Idealize.ShloMosaic.ValueIdx

variable {α : Type} {s si u : Shape} {w : Nat}

/-- One step of the fold: update index number `n` written (kept) at the operand index it lands on. -/
def step (d : ScatterDims s si u) (idx : IVec si w) (upd : u.Idx → α) (r : s.Idx → α) (n : Fin u.numel) : s.Idx → α :=
  match d.resultIdx? (u.rowMajor.symm n) idx with
  | some i => fun i' => if i' = i then (fun (_ b : α) => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- One step at an index, for a constant update: `v` if this update lands there, else what was there. -/
theorem step_apply (d : ScatterDims s si u) (idx : IVec si w) (upd : u.Idx → α) (v : α) (hv : ∀ j, upd j = v)
    (r : s.Idx → α) (n : Fin u.numel) (i : s.Idx) :
    step d idx upd r n i = if d.resultIdx? (u.rowMajor.symm n) idx = some i then v else r i := by
  unfold step
  cases h : d.resultIdx? (u.rowMajor.symm n) idx with
  | none => simp
  | some i0 =>
    by_cases e : i = i0
    · subst e; simp [hv]
    · have : ¬ (some i0 = some i) := fun h' => e (Option.some.inj h').symm
      simp [e, this]

/-- The fold over any list of update indices, at an index. -/
theorem foldl_apply (d : ScatterDims s si u) (idx : IVec si w) (upd : u.Idx → α) (v : α) (hv : ∀ j, upd j = v)
    (i : s.Idx) : ∀ (L : List (Fin u.numel)) (r : s.Idx → α),
      L.foldl (step d idx upd) r i = if ∃ n ∈ L, d.resultIdx? (u.rowMajor.symm n) idx = some i then v else r i
  | [], r => by simp
  | n :: L, r => by
    rw [List.foldl_cons, foldl_apply d idx upd v hv i L, step_apply d idx upd v hv]
    by_cases hL : ∃ n' ∈ L, d.resultIdx? (u.rowMajor.symm n') idx = some i
    · rw [if_pos hL, if_pos (by obtain ⟨n', hn', e⟩ := hL; exact ⟨n', List.mem_cons_of_mem _ hn', e⟩)]
    · rw [if_neg hL]
      by_cases hn : d.resultIdx? (u.rowMajor.symm n) idx = some i
      · rw [if_pos hn, if_pos ⟨n, List.mem_cons_self, hn⟩]
      · rw [if_neg hn, if_neg]
        rintro ⟨n', hn', e⟩
        rcases List.mem_cons.mp hn' with rfl | h
        · exact hn e
        · exact hL ⟨n', h, e⟩

/-- THE SCATTER AT AN INDEX: `v` where some update index lands, the operand elsewhere. -/
theorem scatter_const_apply (d : ScatterDims s si u) (x : s.Idx → α) (idx : IVec si w) (upd : u.Idx → α) (v : α)
    (hv : ∀ j, upd j = v) (i : s.Idx) :
    Host.scatter d (fun _ b => b) x idx upd i = if ∃ j : u.Idx, d.resultIdx? j idx = some i then v else x i := by
  rw [scatter_eq_foldl, foldl_apply d idx upd v hv i]
  refine if_congr ⟨?_, ?_⟩ rfl rfl
  · rintro ⟨n, -, e⟩; exact ⟨_, e⟩
  · rintro ⟨j, e⟩
    exact ⟨u.rowMajor j, List.mem_finRange _, by rw [Equiv.symm_apply_apply]; exact e⟩

/-! ## The two-axis window scatter -/

section Window2

variable {R C r c : Nat}

/-- The dimension numbers of `operand.at[r0:r0+r, c0:c0+c].set(update)` as the host prints them: both operand
    axes are window axes, none inserted, the start index's two components go to the operand's two axes and
    lie along the index tensor's one axis. -/
abbrev win2 (h : ScatterDims.WF (⟨2, ![R, C]⟩ : Shape) ⟨1, ![2]⟩ ⟨2, ![r, c]⟩ [0, 1] [] [0, 1] 0) :
    ScatterDims (⟨2, ![R, C]⟩ : Shape) ⟨1, ![2]⟩ ⟨2, ![r, c]⟩ :=
  { updateWindowDims := [0, 1], insertedWindowDims := [], scatterDimsToOperandDims := [0, 1], indexVectorDim := 0, wf := h }

variable (h : ScatterDims.WF (⟨2, ![R, C]⟩ : Shape) ⟨1, ![2]⟩ ⟨2, ![r, c]⟩ [0, 1] [] [0, 1] 0)

theorem siIdx0 (j : (⟨2, ![r, c]⟩ : Shape).Idx) (hc) : (win2 h).siIdx j ⟨0, hc⟩ = ix1 (0 : Fin 2) := by
  funext b
  match b with
  | ⟨0, _⟩ => unfold ScatterDims.siIdx; rw [dif_pos rfl]; rfl

theorem siIdx1 (j : (⟨2, ![r, c]⟩ : Shape).Idx) (hc) : (win2 h).siIdx j ⟨1, hc⟩ = ix1 (1 : Fin 2) := by
  funext b
  match b with
  | ⟨0, _⟩ => unfold ScatterDims.siIdx; rw [dif_pos rfl]; rfl

theorem start0 (idx : IVec ⟨1, ![2]⟩ w) (j : (⟨2, ![r, c]⟩ : Shape).Idx) :
    (win2 h).start j idx 0 = (idx (ix1 (0 : Fin 2))).toInt := by
  unfold ScatterDims.start
  rw [dif_pos (show (0 : Fin 2) ∈ ([0, 1] : List (Fin 2)) from List.mem_cons_self)]
  exact congrArg (fun k => (idx k).toInt) (siIdx0 h j _)

theorem start1 (idx : IVec ⟨1, ![2]⟩ w) (j : (⟨2, ![r, c]⟩ : Shape).Idx) :
    (win2 h).start j idx 1 = (idx (ix1 (1 : Fin 2))).toInt := by
  unfold ScatterDims.start
  rw [dif_pos (show (1 : Fin 2) ∈ ([0, 1] : List (Fin 2)) from List.mem_cons_of_mem _ List.mem_cons_self)]
  exact congrArg (fun k => (idx k).toInt) (siIdx1 h j _)

theorem window0 (j : (⟨2, ![r, c]⟩ : Shape).Idx) : (win2 h).window j 0 = (j 0).val := by
  unfold ScatterDims.window
  have hm : (0 : Fin (⟨2, ![R, C]⟩ : Shape).rank) ∈ (win2 h).sKept :=
    show (0 : Fin 2) ∈ ([0, 1] : List (Fin 2)) from List.mem_cons_self
  rw [dif_pos hm]
  rfl

theorem window1 (j : (⟨2, ![r, c]⟩ : Shape).Idx) : (win2 h).window j 1 = (j 1).val := by
  unfold ScatterDims.window
  have hm : (1 : Fin (⟨2, ![R, C]⟩ : Shape).rank) ∈ (win2 h).sKept :=
    show (1 : Fin 2) ∈ ([0, 1] : List (Fin 2)) from List.mem_cons_of_mem _ List.mem_cons_self
  rw [dif_pos hm]
  rfl

/-- WHERE AN UPDATE INDEX LANDS: update index `j` lands on operand index `i` exactly when, on each axis, `i`'s
    coordinate is the start component (read signed) plus `j`'s coordinate. -/
theorem resultIdx?_eq_some_iff (idx : IVec ⟨1, ![2]⟩ w) (j : (⟨2, ![r, c]⟩ : Shape).Idx) (i : (⟨2, ![R, C]⟩ : Shape).Idx) :
    (win2 h).resultIdx? j idx = some i ↔
      ((i 0).val : Int) = (idx (ix1 (0 : Fin 2))).toInt + (j 0).val ∧ ((i 1).val : Int) = (idx (ix1 (1 : Fin 2))).toInt + (j 1).val := by
  unfold ScatterDims.resultIdx?
  have e0 : (win2 h).start j idx 0 + ((win2 h).window j 0 : Int) = (idx (ix1 (0 : Fin 2))).toInt + (j 0).val := by
    rw [start0, window0]
  have e1 : (win2 h).start j idx 1 + ((win2 h).window j 1 : Int) = (idx (ix1 (1 : Fin 2))).toInt + (j 1).val := by
    rw [start1, window1]
  constructor
  · intro hs
    split at hs
    · rename_i hin
      have hi := Option.some.inj hs
      have h0 := congrArg (fun f => ((f 0 : Fin _).val : Int)) hi
      have h1 := congrArg (fun f => ((f 1 : Fin _).val : Int)) hi
      simp only at h0 h1
      have b0 := hin 0
      have b1 := hin 1
      refine ⟨?_, ?_⟩
      · rw [← h0, ← e0]; exact Int.toNat_of_nonneg b0.1
      · rw [← h1, ← e1]; exact Int.toNat_of_nonneg b1.1
    · exact absurd hs (by simp)
  · rintro ⟨h0, h1⟩
    have hi0 : (i 0).val < R := (i 0).isLt
    have hi1 : (i 1).val < C := (i 1).isLt
    have hin : ∀ a, 0 ≤ (win2 h).start j idx a + ((win2 h).window j a : Int)
        ∧ (win2 h).start j idx a + ((win2 h).window j a : Int) < ((⟨2, ![R, C]⟩ : Shape).size a : Int) := by
      intro a
      match a with
      | ⟨0, _⟩ =>
        show 0 ≤ (win2 h).start j idx 0 + ((win2 h).window j 0 : Int) ∧ (win2 h).start j idx 0 + ((win2 h).window j 0 : Int) < (R : Int)
        rw [e0, ← h0]; exact ⟨Int.natCast_nonneg _, by exact_mod_cast hi0⟩
      | ⟨1, _⟩ =>
        show 0 ≤ (win2 h).start j idx 1 + ((win2 h).window j 1 : Int) ∧ (win2 h).start j idx 1 + ((win2 h).window j 1 : Int) < (C : Int)
        rw [e1, ← h1]; exact ⟨Int.natCast_nonneg _, by exact_mod_cast hi1⟩
    rw [dif_pos hin]
    congr 1
    funext a
    apply Fin.ext
    match a with
    | ⟨0, _⟩ => show ((win2 h).start j idx 0 + ((win2 h).window j 0 : Int)).toNat = (i 0).val; rw [e0, ← h0]; rfl
    | ⟨1, _⟩ => show ((win2 h).start j idx 1 + ((win2 h).window j 1 : Int)).toNat = (i 1).val; rw [e1, ← h1]; rfl

end Window2

end LibScatterSet

end
-- ==== Proof.RefValue.lean ====
/-
  The reference, read as the specification's functions of the argument arrays on the extended reals.
  Its first four results are the neuron update and the activity chain, stage for stage the specification's terms.
  Its last result needs three observations:
  * the mask it multiplies the input row by is `0` on columns below 2048 and `1` from 2048 on (a concatenation of a
    zero half and a one half), so the masked row is `0` there and the row itself here (`x · 0 = 0`, `x · 1 = x` hold for
    every extended real);
  * the outer product is a contraction over an axis of extent one, a sum of one term;
  * each clip bound is an infinity overwritten by zeros on one quadrant (a scatter that keeps the update): rows and
    columns from `(2048, 0)` for the upper bound, from `(2048, 2048)` for the lower.
  So on rows below 2048 the weight delta is `(-(0 · c)) · s = 0` and the bounds are `-∞, +∞`: the weight is returned
  as it was (`w + 0 = w`, `max ⊥ w = w`, `min ⊤ w = w`); on rows from 2048 on it is the specification's clipped update.
-/
import proofs.«161963_j3315714752610_2_alg».proof.Proof.RefReadP
import proofs.«161963_j3315714752610_2_alg».proof.Proof.Spec
import proofs.«161963_j3315714752610_2_alg».proof.Proof.Scalars
import proofs.«161963_j3315714752610_2_alg».proof.Proof.LibScatterSet
import Idealize.ShloMosaic.Lib.Pipeline.Value
import Idealize.ShloMosaic.Lib.IdealHost

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.ValueIdx
open Cert.Spec

variable (x0 x1 x6 : Row) (x4 : One) (x5 : Mat)

/-! ## The neuron update -/

theorem lidx0 (q k : Fin 4096) : lidx_main_v0 (ix2 (0 : Fin 1) q) k = ix2 (0 : Fin 1) k :=
  funext fun a => Fin.ext (by match a with | ⟨0, _⟩ => rfl | ⟨1, _⟩ => rfl)
theorem ridx0 (q k : Fin 4096) : ridx_main_v0 (ix2 (0 : Fin 1) q) k = ix2 k q :=
  funext fun a => Fin.ext (by match a with | ⟨0, _⟩ => rfl | ⟨1, _⟩ => rfl)

theorem current_apply (q : Fin 4096) : val_main_v0 (F := Ideal) x0 x5 (ix2 (0 : Fin 1) q) = current x0 x5 q := by
  rw [val_main_v0_apply]
  unfold current
  refine Finset.sum_congr rfl fun k _ => ?_
  rw [lidx0, ridx0]

theorem potential_apply (q : Fin 4096) : val_main_v5 (F := Ideal) x0 x1 x5 (ix2 (0 : Fin 1) q) = potential x0 x1 x5 q := by
  rw [val_main_v5_apply, val_main_v4_apply, val_main_v3_apply, val_main_cst_apply, val_main_v2_apply, val_main_v1_apply,
    current_apply]
  rfl

theorem spike_apply (q : Fin 4096) : val_main_v8 (F := Ideal) x0 x1 x5 x6 (ix2 (0 : Fin 1) q) = spike x0 x1 x6 x5 q := by
  rw [val_main_v8_apply, val_main_v7_apply, val_main_v6_apply, potential_apply]
  rfl

theorem ref_newZ : val_main_v13 (F := Ideal) x0 x1 x5 x6 = newZ x0 x1 x6 x5 := by
  funext i
  obtain ⟨p, q, rfl⟩ : ∃ (p : Fin 1) (q : Fin 4096), i = ix2 p q := ⟨i 0, i 1, eq_ix2 i⟩
  obtain rfl : p = 0 := Subsingleton.elim _ _
  rw [val_main_v13_apply, val_main_v12_apply, val_main_cst_1_apply, spike_apply]
  rfl

theorem ref_newV : val_main_v11 (F := Ideal) x0 x1 x5 x6 = newV x0 x1 x6 x5 := by
  funext i
  obtain ⟨p, q, rfl⟩ : ∃ (p : Fin 1) (q : Fin 4096), i = ix2 p q := ⟨i 0, i 1, eq_ix2 i⟩
  obtain rfl : p = 0 := Subsingleton.elim _ _
  rw [val_main_v11_apply, val_main_v10_apply, val_main_v9_apply, val_main_cst_0_apply, potential_apply, spike_apply]
  rfl

/-! ## The activity and the surprise: the shared host chains -/

theorem ref_act : val_main_v19 (F := Ideal) x0 x1 x4 x5 x6
    = popOf Facts₀.reducesTo_S1x4096_S_d0_1 Facts₀.h_S_ Facts₀.bcast_S_S1x1 (newZ x0 x1 x6 x5) x4 := by
  rw [← ref_newZ]
  rfl

theorem ref_sur : val_main_v35 (F := Ideal) x0 x1 x4 x5 x6
    = surpriseOf Facts₀.bcast_S_S1x1 (popOf Facts₀.reducesTo_S1x4096_S_d0_1 Facts₀.h_S_ Facts₀.bcast_S_S1x1 (newZ x0 x1 x6 x5) x4) := by
  rw [← ref_newZ]
  rfl

/-! ## The masked input row and the outer product -/

/-- The mask: `0` on the first 2048 columns, `1` on the rest. -/
theorem mask_apply (k : Fin 4096) : val_main_v38 (F := Ideal) (ix2 (0 : Fin 1) k) = if k.val < 2048 then 0 else 1 := by
  unfold val_main_v38
  by_cases h : k.val < 2048
  · rw [if_pos h, concatenate_pair_apply_left (s₁ := S1x2048) (s₂ := S1x2048) (1 : Fin 2) _ _ _ (ix2 (0 : Fin 1) k) rfl (ix2 (0 : Fin 1) (⟨k.val, h⟩ : Fin 2048))
      (fun b => by match b with | ⟨0, _⟩ => rfl | ⟨1, _⟩ => rfl), val_main_v36_apply, val_main_cst_9_apply]
    exact Ideal.ofBits_zero_f32
  · rw [if_neg h, concatenate_pair_apply_right (s₁ := S1x2048) (s₂ := S1x2048) (1 : Fin 2) _ _ _ (ix2 (0 : Fin 1) k) rfl rfl
      (ix2 (0 : Fin 1) (⟨k.val - 2048, by have := k.isLt; omega⟩ : Fin 2048))
      (fun b hb => by match b with | ⟨0, _⟩ => rfl | ⟨1, _⟩ => exact absurd rfl hb)
      (by show k.val - 2048 + 2048 = k.val; omega), val_main_v37_apply, val_main_cst_10_apply]
    exact Ideal.ofBits_one_f32

/-- The masked input row. -/
theorem masked_apply (k : Fin 4096) :
    val_main_v39 (F := Ideal) x0 (ix2 (0 : Fin 1) k) = if k.val < 2048 then 0 else x0 (ix2 (0 : Fin 1) k) := by
  rw [val_main_v39_apply, mask_apply]
  show x0 (ix2 (0 : Fin 1) k) * (if k.val < 2048 then (0 : EReal) else 1) = _
  split
  · exact mul_zero _
  · exact mul_one _

theorem lidx40 (r q : Fin 4096) (k : Fin 1) : lidx_main_v40 (ix2 r q) k = ix2 (0 : Fin 1) r :=
  funext fun a => Fin.ext (by match a with | ⟨0, _⟩ => exact Nat.lt_one_iff.mp k.isLt | ⟨1, _⟩ => rfl)
theorem ridx40 (r q : Fin 4096) (k : Fin 1) : ridx_main_v40 (ix2 r q) k = ix2 (0 : Fin 1) q :=
  funext fun a => Fin.ext (by match a with | ⟨0, _⟩ => exact Nat.lt_one_iff.mp k.isLt | ⟨1, _⟩ => rfl)

/-- The outer product at `(r, q)`: the masked input at `r` times the current into `q`. -/
theorem outer_apply (r q : Fin 4096) : val_main_v40 (F := Ideal) x0 x5 (ix2 r q)
    = (if r.val < 2048 then 0 else x0 (ix2 (0 : Fin 1) r)) * current x0 x5 q := by
  rw [val_main_v40_apply, Fin.sum_univ_one, lidx40, ridx40, masked_apply, current_apply]

/-! ## The clip bounds -/

theorem idx47_0 : val_main_v47 (F := Ideal) (ix1 (0 : Fin 2)) = 2048#32 := by
  unfold val_main_v47
  rw [concatenate_pair_apply_left (s₁ := S1) (s₂ := S1) (0 : Fin 1) _ _ _ (ix1 (0 : Fin 2)) rfl (ix1 (0 : Fin 1))
    (fun b => by match b with | ⟨0, _⟩ => rfl), val_main_v45_apply, val_main_c_apply]
theorem idx47_1 : val_main_v47 (F := Ideal) (ix1 (1 : Fin 2)) = 0#32 := by
  unfold val_main_v47
  rw [concatenate_pair_apply_right (s₁ := S1) (s₂ := S1) (0 : Fin 1) _ _ _ (ix1 (1 : Fin 2)) rfl rfl (ix1 (0 : Fin 1))
    (fun b hb => by match b with | ⟨0, _⟩ => exact absurd rfl hb) rfl, val_main_v46_apply, val_main_c_12_apply]
theorem idx53_0 : val_main_v53 (F := Ideal) (ix1 (0 : Fin 2)) = 2048#32 := by
  unfold val_main_v53
  rw [concatenate_pair_apply_left (s₁ := S1) (s₂ := S1) (0 : Fin 1) _ _ _ (ix1 (0 : Fin 2)) rfl (ix1 (0 : Fin 1))
    (fun b => by match b with | ⟨0, _⟩ => rfl), val_main_v51_apply, val_main_c_15_apply]
theorem idx53_1 : val_main_v53 (F := Ideal) (ix1 (1 : Fin 2)) = 2048#32 := by
  unfold val_main_v53
  rw [concatenate_pair_apply_right (s₁ := S1) (s₂ := S1) (0 : Fin 1) _ _ _ (ix1 (1 : Fin 2)) rfl rfl (ix1 (0 : Fin 1))
    (fun b hb => by match b with | ⟨0, _⟩ => exact absurd rfl hb) rfl, val_main_v52_apply, val_main_c_16_apply]

theorem toInt_2048 : (2048#32 : BitVec 32).toInt = 2048 := by decide
theorem toInt_0 : (0#32 : BitVec 32).toInt = 0 := by decide

/-- The upper bound: `+∞`, overwritten by `0` on rows from 2048 on and columns below 2048. -/
theorem upper_apply (r q : Fin 4096) :
    val_main_v49 (F := Ideal) (ix2 r q) = if 2048 ≤ r.val ∧ q.val < 2048 then 0 else ⊤ := by
  unfold val_main_v49
  rw [show scatter_S4096x4096_S2_S2048x2048_01_n_01_0 = LibScatterSet.win2 Facts₀.scatter_S4096x4096_S2_S2048x2048_01_n_01_0_wf from rfl,
    LibScatterSet.scatter_const_apply _ _ _ _ (0 : EReal)
      (fun j => by rw [val_main_v48_apply, val_main_cst_13_apply]; exact Ideal.ofBits_zero_f32),
    val_main_v44_apply, val_main_cst_11_apply]
  refine if_congr ?_ rfl Cert.Scalars.ofBits_posInf
  simp only [LibScatterSet.resultIdx?_eq_some_iff, idx47_0, idx47_1, toInt_2048, toInt_0]
  have hr := r.isLt
  have hq := q.isLt
  constructor
  · rintro ⟨j, h0, h1⟩
    have j0 := idx2_lt0 j
    have j1 := idx2_lt1 j
    have h0' : (r.val : Int) = 2048 + ((j 0).val : Int) := h0
    have h1' : (q.val : Int) = 0 + ((j 1).val : Int) := h1
    omega
  · rintro ⟨h0, h1⟩
    refine ⟨ix2 (⟨r.val - 2048, by omega⟩ : Fin 2048) (⟨q.val, h1⟩ : Fin 2048), ?_, ?_⟩
    · show (r.val : Int) = 2048 + ((r.val - 2048 : Nat) : Int); omega
    · show (q.val : Int) = 0 + (q.val : Int); omega

/-- The lower bound: `-∞`, overwritten by `0` on rows and columns from 2048 on. -/
theorem lower_apply (r q : Fin 4096) :
    val_main_v55 (F := Ideal) (ix2 r q) = if 2048 ≤ r.val ∧ 2048 ≤ q.val then 0 else ⊥ := by
  unfold val_main_v55
  rw [show scatter_S4096x4096_S2_S2048x2048_01_n_01_0 = LibScatterSet.win2 Facts₀.scatter_S4096x4096_S2_S2048x2048_01_n_01_0_wf from rfl,
    LibScatterSet.scatter_const_apply _ _ _ _ (0 : EReal)
      (fun j => by rw [val_main_v54_apply, val_main_cst_17_apply]; exact Ideal.ofBits_zero_f32),
    val_main_v50_apply, val_main_cst_14_apply]
  refine if_congr ?_ rfl Cert.Scalars.ofBits_negInf
  simp only [LibScatterSet.resultIdx?_eq_some_iff, idx53_0, idx53_1, toInt_2048]
  have hr := r.isLt
  have hq := q.isLt
  constructor
  · rintro ⟨j, h0, h1⟩
    have j0 := idx2_lt0 j
    have j1 := idx2_lt1 j
    have h0' : (r.val : Int) = 2048 + ((j 0).val : Int) := h0
    have h1' : (q.val : Int) = 2048 + ((j 1).val : Int) := h1
    omega
  · rintro ⟨h0, h1⟩
    refine ⟨ix2 (⟨r.val - 2048, by omega⟩ : Fin 2048) (⟨q.val - 2048, by omega⟩ : Fin 2048), ?_, ?_⟩
    · show (r.val : Int) = 2048 + ((r.val - 2048 : Nat) : Int); omega
    · show (q.val : Int) = 2048 + ((q.val - 2048 : Nat) : Int); omega

/-! ## The updated weights -/

theorem idx42 (i : S4096x4096.Idx) : idx_main_v42 i = ix2 (0 : Fin 1) (0 : Fin 1) :=
  funext fun a => Fin.ext (by match a with | ⟨0, _⟩ => rfl | ⟨1, _⟩ => rfl)

theorem ref_newW : val_main_v57 (F := Ideal) x0 x1 x4 x5 x6
    = newW x0 x5 (currentRow x0 x5) (surpriseOf Facts₀.bcast_S_S1x1 (popOf Facts₀.reducesTo_S1x4096_S_d0_1 Facts₀.h_S_ Facts₀.bcast_S_S1x1 (newZ x0 x1 x6 x5) x4)) := by
  funext i
  obtain ⟨r, q, rfl⟩ : ∃ (r q : Fin 4096), i = ix2 r q := ⟨i 0, i 1, eq_ix2 i⟩
  rw [val_main_v57_apply, val_main_call0_v0_apply, val_main_v56_apply, val_main_v43_apply, val_main_v42_apply, val_main_v41_apply,
    outer_apply, upper_apply, lower_apply, ref_sur, idx42]
  generalize surpriseOf Facts₀.bcast_S_S1x1 (popOf Facts₀.reducesTo_S1x4096_S_d0_1 Facts₀.h_S_ Facts₀.bcast_S_S1x1 (newZ x0 x1 x6 x5) x4) = S
  have hr := r.isLt
  have hq := q.isLt
  unfold newW hi lo
  by_cases h : 2048 ≤ r.val
  · rw [dif_pos (show 2048 ≤ ((ix2 r q : SMat.Idx) 0).val from h), if_neg (by omega : ¬ r.val < 2048)]
    by_cases hq2 : q.val < 2048
    · rw [if_pos ⟨h, hq2⟩, if_neg (by omega : ¬ (2048 ≤ r.val ∧ 2048 ≤ q.val)),
        if_pos (show ((ix2 r q : SMat.Idx) 1).val < 2048 from hq2), if_pos (show ((ix2 r q : SMat.Idx) 1).val < 2048 from hq2)]
      rfl
    · rw [if_neg (by omega : ¬ (2048 ≤ r.val ∧ q.val < 2048)), if_pos ⟨h, by omega⟩,
        if_neg (show ¬ ((ix2 r q : SMat.Idx) 1).val < 2048 from hq2), if_neg (show ¬ ((ix2 r q : SMat.Idx) 1).val < 2048 from hq2)]
      rfl
  · rw [dif_neg (show ¬ 2048 ≤ ((ix2 r q : SMat.Idx) 0).val from h), if_pos (by omega : r.val < 2048),
      if_neg (by omega : ¬ (2048 ≤ r.val ∧ q.val < 2048)), if_neg (by omega : ¬ (2048 ≤ r.val ∧ 2048 ≤ q.val))]
    show min ⊤ (max ⊥ (x5 (ix2 r q) + (-((0 : EReal) * current x0 x5 q)) * S (ix2 (0 : Fin 1) (0 : Fin 1)))) = x5 (ix2 r q)
    rw [zero_mul, neg_zero, zero_mul, add_zero, max_bot_left, min_top_left]

end Cert.ReferenceIdeal.RefValue

end
-- ==== Proof.lean ====
/-
  One step of a spiking network: a leaky integrate-and-fire update against a given threshold array, a filtered
  population activity, and an outer-product weight update clipped to sign constraints. The kernel computes it with
  two grid kernels and a stretch of host operations between them; the reference with plain array operations.

  Why the two agree on the extended reals, result by result (Proof/Spec.lean states each as a function of the
  arguments; Proof/KernelValue.lean and Proof/RefValue.lean show the two programs compute those functions):
  * new_z, new_v, new_i: the first kernel splits the 4096 recurrent neurons into four blocks of 1024; lane q of
    block t sees column 1024·t + q of the weights, so each block is the restriction of one whole-row function and the
    blocks tile the row. The kernel negates by `0 - v`, the reference by `-v`; the kernel converts the spike bit by a
    signed read of its widening, the reference by an unsigned read of the bit: the same extended real each time.
  * activity (and the surprise that the weight update uses): the same host operations applied to the same spikes.
  * new_w: the reference multiplies the input row by a mask that is 0 on the first 2048 inputs, so there its weight
    delta is (-(0 · c)) · s = 0 and its clip bounds are -∞, +∞: it returns those rows unchanged (w + 0 = w,
    max ⊥ w = w, min ⊤ w = w — laws of every extended real, no finiteness needed). The kernel never visits those
    rows of its result, which starts as a copy of the weights. On the other 2048 rows both compute
    min hi (max lo (w + (-(x · current)) · surprise)) with the same bounds per column half.
  Nothing here divides, cancels or distributes, so the precondition (finite inputs) is never opened.
-/
import proofs.«161963_j3315714752610_2_alg».proof.Defs
import proofs.«161963_j3315714752610_2_alg».proof.Proof.Gen.Kernel
import proofs.«161963_j3315714752610_2_alg».proof.Proof.Gen.KernelIdeal
import proofs.«161963_j3315714752610_2_alg».proof.Proof.Gen.ReferenceIdeal
import proofs.«161963_j3315714752610_2_alg».proof.Proof.Gen.Pre_finite_inputs
import proofs.«161963_j3315714752610_2_alg».proof.Proof.KernelFrameP
import proofs.«161963_j3315714752610_2_alg».proof.Proof.KernelValue
import proofs.«161963_j3315714752610_2_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference runs and keeps its arguments: its run with the results dropped. -/
theorem frame_ri : Cert.frame_ReferenceIdeal := fun m ρ _ =>
  (θ_run Cert.ReferenceIdeal.defs _ _).mono (fun _ h c => (h c).2.2.2.2.2) (Cert.ReferenceIdeal.ValueP.run (F := Ideal) m ρ)

/-- The idealization rewrote no operation. -/
theorem preserves : Cert.preserves_Kernel_KernelIdeal := trivial

/-- Both idealized programs, from memories agreeing on the arguments, end with the specification's five results. -/
theorem algebraic : Cert.algebraic_KernelIdeal_ReferenceIdeal := by
  intro m ρ m' ρ' _ hagree
  refine ⟨_, _, _, _, _, Cert.KernelIdeal.Whole.run m ρ, ?_⟩
  refine (θ_run Cert.ReferenceIdeal.defs _ _).mono (fun r h c => ?_) (Cert.ReferenceIdeal.ValueP.run (F := Ideal) m' ρ')
  obtain ⟨h13, h11, h11', h19, h57, hargs⟩ := h c
  obtain ⟨e0, e1, e2, e3, e4, e5, e6⟩ := hagree c
  refine ⟨?_, ?_, ?_, ?_, ?_, hargs⟩
  · refine h13.trans ((Cert.ReferenceIdeal.ReadP.val_main_v13_eq _ _ _ _).trans ?_)
    rw [e0, e1, e5, e6]
    exact Cert.ReferenceIdeal.RefValue.ref_newZ _ _ _ _
  · refine h11.trans ((Cert.ReferenceIdeal.ReadP.val_main_v11_eq _ _ _ _).trans ?_)
    rw [e0, e1, e5, e6]
    exact Cert.ReferenceIdeal.RefValue.ref_newV _ _ _ _
  · refine h11'.trans ((Cert.ReferenceIdeal.ReadP.val_main_v11_eq _ _ _ _).trans ?_)
    rw [e0, e1, e5, e6]
    exact Cert.ReferenceIdeal.RefValue.ref_newV _ _ _ _
  · refine h19.trans ((Cert.ReferenceIdeal.ReadP.val_main_v19_eq _ _ _ _ _).trans ?_)
    rw [e0, e1, e4, e5, e6]
    exact Cert.ReferenceIdeal.RefValue.ref_act _ _ _ _ _
  · refine h57.trans ((Cert.ReferenceIdeal.ReadP.val_main_v57_eq m' c).trans ?_)
    rw [e0, e1, e4, e5, e6]
    exact Cert.ReferenceIdeal.RefValue.ref_newW _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
